-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S65x1024 : Shape := ⟨2, ![65, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S65x1024 : S_.BroadcastsInDim S65x1024 (![] : Fin 0 → Fin S65x1024.rank)
  reducesTo_S65x1024_S_d0_1 : S65x1024.ReducesTo [0, 1] S_

variable [Facts]

def fn {F : FTy → Type} [FloatOps F] (main_arg0 : FVec F S4x4096x1024 .f32) (main_arg1 : FVec F S65x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S65x1024 .f32 := Host.absf main_arg1
  let main_cst_0 : FVec F S_ .f32 := constant S_ .f32 0x7F800000#32
  let main_v5 : FVec F S65x1024 .f32 := broadcastInDim S65x1024 ![] bcast_S_S65x1024 main_cst_0
  let main_v6 : IVec S65x1024 1 := cmpf .olt main_v4 main_v5
  let main_c_1 : IVec S_ 1 := constantI S_ 1 1#1
  let main_v7 : IVec S_ 1 := (fun x v => Host.reduce IntOp.andi x v reducesTo_S65x1024_S_d0_1 h_S_) main_v6 main_c_1
  let main_v8 : IVec S_ 1 := andi main_v3 main_v7
  main_v8
-- ==== Kernel.lean ====
abbrev S4x4096x1024 : Shape := ⟨3, ![4, 4096, 1024]⟩
abbrev S65x1024 : Shape := ⟨2, ![65, 1024]⟩
abbrev S4096 : Shape := ⟨1, ![4096]⟩
abbrev S4096x1 : Shape := ⟨2, ![4096, 1]⟩
abbrev S65 : Shape := ⟨1, ![65]⟩
abbrev S1x65 : Shape := ⟨2, ![1, 65]⟩
abbrev S_ : Shape := ⟨0, ![]⟩
abbrev S4096x65 : Shape := ⟨2, ![4096, 65]⟩
abbrev S4096x128 : Shape := ⟨2, ![4096, 128]⟩
abbrev S128x1024 : Shape := ⟨2, ![128, 1024]⟩
abbrev S1x2048x1024 : Shape := ⟨3, ![1, 2048, 1024]⟩
abbrev S2048x128 : Shape := ⟨2, ![2048, 128]⟩
abbrev S2048x1024 : Shape := ⟨2, ![2048, 1024]⟩

abbrev nBuf : Space → Nat
  | .hbm => 59
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S65x1024, .f32⟩
  | .hbm, ⟨2, _⟩ => ⟨S4096, .i32⟩
  | .hbm, ⟨3, _⟩ => ⟨S4096x1, .i32⟩
  | .hbm, ⟨4, _⟩ => ⟨S65, .i32⟩
  | .hbm, ⟨5, _⟩ => ⟨S1x65, .i32⟩
  | .hbm, ⟨6, _⟩ => ⟨S_, .i32⟩
  | .hbm, ⟨7, _⟩ => ⟨S1x65, .i32⟩
  | .hbm, ⟨8, _⟩ => ⟨S1x65, .i32⟩
  | .hbm, ⟨9, _⟩ => ⟨S4096x65, .i32⟩
  | .hbm, ⟨10, _⟩ => ⟨S4096x65, .i32⟩
  | .hbm, ⟨11, _⟩ => ⟨S4096x65, .i32⟩
  | .hbm, ⟨12, _⟩ => ⟨S_, .i32⟩
  | .hbm, ⟨13, _⟩ => ⟨S4096x65, .i32⟩
  | .hbm, ⟨14, _⟩ => ⟨S4096x65, .i1⟩
  | .hbm, ⟨15, _⟩ => ⟨S_, .i32⟩
  | .hbm, ⟨16, _⟩ => ⟨S4096x65, .i32⟩
  | .hbm, ⟨17, _⟩ => ⟨S4096x65, .i1⟩
  | .hbm, ⟨18, _⟩ => ⟨S4096x65, .i1⟩
  | .hbm, ⟨19, _⟩ => ⟨S4096x65, .f32⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S_, .i32⟩
  | .hbm, ⟨34, _⟩ => ⟨S4096x1, .i32⟩
  | .hbm, ⟨35, _⟩ => ⟨S4096x1, .i32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .i32⟩
  | .hbm, ⟨41, _⟩ => ⟨S1x65, .i32⟩
  | .hbm, ⟨42, _⟩ => ⟨S1x65, .i1⟩
  | .hbm, ⟨43, _⟩ => ⟨S_, .i32⟩
  | .hbm, ⟨44, _⟩ => ⟨S1x65, .i32⟩
  | .hbm, ⟨45, _⟩ => ⟨S1x65, .i1⟩
  | .hbm, ⟨46, _⟩ => ⟨S4096x65, .f32⟩
  | .hbm, ⟨47, _⟩ => ⟨S4096x65, .f32⟩
  | .hbm, ⟨48, _⟩ => ⟨S4096x65, .i1⟩
  | .hbm, ⟨49, _⟩ => ⟨S4096x65, .f32⟩
  | .hbm, ⟨50, _⟩ => ⟨S4096x65, .i1⟩
  | .hbm, ⟨51, _⟩ => ⟨S4096x65, .f32⟩
  | .hbm, ⟨52, _⟩ => ⟨S_, .i32⟩
  | .hbm, ⟨53, _⟩ => ⟨S_, .f32⟩
  | .hbm, ⟨54, _⟩ => ⟨S4096x128, .f32⟩
  | .hbm, ⟨55, _⟩ => ⟨S_, .i32⟩
  | .hbm, ⟨56, _⟩ => ⟨S_, .f32⟩
  | .hbm, ⟨57, _⟩ => ⟨S128x1024, .f32⟩
  | .hbm, ⟨58, _⟩ => ⟨S4x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x128, .f32⟩
  | .local _ .vmem, ⟨3, _⟩ => ⟨S2048x128, .f32⟩
  | .local _ .vmem, ⟨4, _⟩ => ⟨S128x1024, .f32⟩
  | .local _ .vmem, ⟨5, _⟩ => ⟨S1x2048x1024, .f32⟩
  | .local _ .vmem, ⟨6, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_v35 : Ref sig .tc := ⟨.hbm, 49, rfl⟩
abbrev main_call1_v0 : Ref sig .tc := ⟨.hbm, 50, rfl⟩
abbrev main_v36 : Ref sig .tc := ⟨.hbm, 51, rfl⟩
abbrev main_c_9 : Ref sig .tc := ⟨.hbm, 52, rfl⟩
abbrev main_call2_v0 : Ref sig .tc := ⟨.hbm, 53, rfl⟩
abbrev main_v37 : Ref sig .tc := ⟨.hbm, 54, rfl⟩
abbrev main_c_10 : Ref sig .tc := ⟨.hbm, 55, rfl⟩
abbrev main_call3_v0 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4096_S4096x1_0 : S4096.BroadcastsInDim S4096x1 (![0] : Fin 1 → Fin S4096x1.rank)
  bcast_S65_S1x65_1 : S65.BroadcastsInDim S1x65 (![1] : Fin 1 → Fin S1x65.rank)
  bcast_S_S1x65 : S_.BroadcastsInDim S1x65 (![] : Fin 0 → Fin S1x65.rank)
  bcast_S4096x1_S4096x65_0_1 : S4096x1.BroadcastsInDim S4096x65 (![0, 1] : Fin 2 → Fin S4096x65.rank)
  bcast_S1x65_S4096x65_0_1 : S1x65.BroadcastsInDim S4096x65 (![0, 1] : Fin 2 → Fin S4096x65.rank)
  bcast_S_S4096x65 : S_.BroadcastsInDim S4096x65 (![] : Fin 0 → Fin S4096x65.rank)
  bcast_S_S4096x1 : S_.BroadcastsInDim S4096x1 (![] : Fin 0 → Fin S4096x1.rank)
  pads_S4096x65_S4096x128_000_0630 : S4096x65.Pads (![0, 0] : Fin 2 → Nat) ![0, 63] ![0, 0] S4096x128
  h_S_ : 0 < S_.numel
  pads_S65x1024_S128x1024_0630_000 : S65x1024.Pads (![0, 0] : Fin 2 → Nat) ![63, 0] ![0, 0] S128x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S2048x1024_S1x2048x1024 : S2048x1024.ShapeCasts S1x2048x1024
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x128.size a
  hwx0_1 : ∀ i : grid0.Coords, EltTy.bits .f32 = 32 ∨ (Rect.block (s := S4096x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x4096x1024.size a
  hwx0_3 : ∀ i : grid0.Coords, EltTy.bits .f32 = 32 ∨ (Rect.block (s := S4x4096x1024) S1x2048x1024.size (cc0_transform_3 i) (hinb0_3 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S4x4096x1024 : Shape := ⟨3, ![4, 4096, 1024]⟩
abbrev S65x1024 : Shape := ⟨2, ![65, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x65 : Shape := ⟨2, ![4096, 65]⟩
abbrev S4096x4096x1 : Shape := ⟨3, ![4096, 4096, 1]⟩
abbrev S4096x4096x2 : Shape := ⟨3, ![4096, 4096, 2]⟩
abbrev S4096x1024 : Shape := ⟨2, ![4096, 1024]⟩
abbrev S1x4096x1024 : Shape := ⟨3, ![1, 4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S65x1024, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x1, .i32⟩
  | .hbm, ⟨20, _⟩ => ⟨S4096x4096, .i32⟩
  | .hbm, ⟨21, _⟩ => ⟨S_, .f32⟩
  | .hbm, ⟨22, _⟩ => ⟨S4096x65, .f32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096x1, .i32⟩
  | .hbm, ⟨38, _⟩ => ⟨S4096x4096x1, .i32⟩
  | .hbm, ⟨39, _⟩ => ⟨S4096x4096x2, .i32⟩
  | .hbm, ⟨40, _⟩ => ⟨S_, .f32⟩
  | .hbm, ⟨41, _⟩ => ⟨S4096x4096, .f32⟩
  | .hbm, ⟨42, _⟩ => ⟨S4096x65, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S1x4096x1024, .f32⟩
  | .hbm, ⟨48, _⟩ => ⟨S4x4096x1024, .f32⟩
  | .hbm, ⟨49, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S4096x65 : S_.BroadcastsInDim S4096x65 (![] : Fin 0 → Fin S4096x65.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  bcast_S_S4096x1024 : S_.BroadcastsInDim S4096x1024 (![] : Fin 0 → Fin S4096x1024.rank)
  bcast_S4096x1024_S1x4096x1024_1_2 : S4096x1024.BroadcastsInDim S1x4096x1024 (![1, 2] : Fin 2 → Fin S1x4096x1024.rank)
  bcast_S1x4096x1024_S4x4096x1024_0_1_2 : S1x4096x1024.BroadcastsInDim S4x4096x1024 (![0, 1, 2] : Fin 3 → Fin S4x4096x1024.rank)
  scatter_S4096x65_S4096x4096x2_S4096x4096_n_01_01_2_wf : ScatterDims.WF S4096x65 S4096x4096x2 S4096x4096 [] [0, 1] [0, 1] 2
  dot_S4096x65_S65x1024_S4096x1024_1_0_0_1_n_n_wf : DotDims.WF S4096x65 S65x1024 S4096x1024 [1] [0] [0] [1] [] []

variable [Facts₀]

def scatter_S4096x65_S4096x4096x2_S4096x4096_n_01_01_2 : ScatterDims S4096x65 S4096x4096x2 S4096x4096 where
  updateWindowDims := []
  insertedWindowDims := [0, 1]
  scatterDimsToOperandDims := [0, 1]
  indexVectorDim := 2
  wf := scatter_S4096x65_S4096x4096x2_S4096x4096_n_01_01_2_wf
def dot_S4096x65_S65x1024_S4096x1024_1_0_0_1_n_n : DotDims S4096x65 S65x1024 S4096x1024 where
  lhsContracting := [1]
  rhsContracting := [0]
  lhsNonContracting := [0]
  rhsNonContracting := [1]
  lhsBatch := []
  rhsBatch := []
  wf := dot_S4096x65_S65x1024_S4096x1024_1_0_0_1_n_n_wf

class Facts : Prop extends Facts₀ where

variable [Facts]
-- ==== Proof.KernelBody.lean ====
/-
  The kernel body's arithmetic at one entry of its output block.

  At a grid point the body loads a 2048×128 block `a` of the padded histogram, the whole 128×1024 padded table `t`
  and a 1×2048×1024 block `x` of the input, and stores `x + (a · t) · 2⁻¹²`, the matrix product taken into a zero
  accumulator. Read at entry `(0, r, d)` that is `x (0, r, d) + (Σ_k a (r, k) · t (k, d)) · 2⁻¹²`: the product with
  one contracted axis is the plain sum over that axis, the two shape casts to the same shape do nothing, and the
  cast that prepends a unit axis drops the leading coordinate.
-/
import proofs.«137980_j20779051778070_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- The operand indices of the product's one contraction, coordinate by coordinate: output entry `i` and
    contracted position `q` meet the left operand at row `i 0` … -/
theorem lhs_row (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide),
    dif_pos (show (0 : Fin S2048x128.rank) ∈ dot_S2048x128_S128x1024_S2048x1024_1_0_0_1_n_n.lhsNonContracting by decide)]
  rfl
/-- … and column `q`; -/
theorem lhs_col (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
/-- the right operand at row `q` … -/
theorem rhs_row (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
/-- … and column `i 1`. -/
theorem rhs_col (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide),
    dif_pos (show (1 : Fin S128x1024.rank) ∈ dot_S2048x128_S128x1024_S2048x1024_1_0_0_1_n_n.rhsNonContracting by decide)]
  rfl

/-- The block product into the zero accumulator, at entry `(r, d)`: the sum over the 128 contracted positions of
    left `(r, k)` times right `(k, d)`. -/
theorem product_at (a : FVec Ideal S2048x128 .f32) (t : FVec Ideal S128x1024 .f32) (r : Fin 2048) (d : Fin 1024) :
    matmul dot_S2048x128_S128x1024_S2048x1024_1_0_0_1_n_n none a t (constant S2048x1024 .f32 0x00000000#32) (ix2 r d)
      = ∑ k : Fin 128, a (ix2 r k) * t (ix2 k d) := by
  show FloatOps.matmul dot_S2048x128_S128x1024_S2048x1024_1_0_0_1_n_n none a t (constant S2048x1024 .f32 0x00000000#32) (ix2 r d) = _
  rw [Ideal.matmul_constant_zero_apply,
    ← Equiv.sum_comp (contrEquiv1 dot_S2048x128_S128x1024_S2048x1024_1_0_0_1_n_n 128 rfl rfl).symm]
  refine Finset.sum_congr rfl fun k _ => ?_
  have hk := contrEquiv1_symm_val dot_S2048x128_S128x1024_S2048x1024_1_0_0_1_n_n 128 rfl rfl k
  have el : dot_S2048x128_S128x1024_S2048x1024_1_0_0_1_n_n.lhsIdx (ix2 r d) ((contrEquiv1 dot_S2048x128_S128x1024_S2048x1024_1_0_0_1_n_n 128 rfl rfl).symm k) = ix2 r k :=
    funext fun a => Fin.ext (by
      match a with
      | ⟨0, _⟩ => exact lhs_row _ _
      | ⟨1, _⟩ => exact (lhs_col _ _).trans hk)
  have er : dot_S2048x128_S128x1024_S2048x1024_1_0_0_1_n_n.rhsIdx (ix2 r d) ((contrEquiv1 dot_S2048x128_S128x1024_S2048x1024_1_0_0_1_n_n 128 rfl rfl).symm k) = ix2 k d :=
    funext fun a => Fin.ext (by
      match a with
      | ⟨0, _⟩ => exact (rhs_row _ _).trans hk
      | ⟨1, _⟩ => exact rhs_col _ _)
  rw [el, er]

/-- The cast that prepends a unit axis, read at `(0, r, d)`: the leading coordinate is dropped. -/
theorem addUnit_at (v : FVec Ideal S2048x1024 .f32) (r : Fin 2048) (d : Fin 1024) :
    shapeCast S1x2048x1024 v shapeCasts_S2048x1024_S1x2048x1024 (ix3 (0 : Fin 1) r d) = v (ix2 r d) := by
  refine (shapeCast_addUnit_apply (n := 2) ![2048, 1024] v shapeCasts_S2048x1024_S1x2048x1024 (ix3 (0 : Fin 1) r d)).trans ?_
  refine congrArg v (funext fun a => ?_)
  match a with
  | ⟨0, _⟩ => rfl
  | ⟨1, _⟩ => rfl

/-- The stored value at entry `(0, r, d)` of the output block. -/
theorem payload_at (a : Vec Ideal S2048x128 .f32) (t : Vec Ideal S128x1024 .f32) (x : Vec Ideal S1x2048x1024 .f32)
    (r : Fin 2048) (d : Fin 1024) :
    k0_pay1 (F := Ideal) a t x (ix3 (0 : Fin 1) r d)
      = x (ix3 (0 : Fin 1) r d) + (∑ k : Fin 128, a (ix2 r k) * t (ix2 k d)) * Ideal.ofBits .f32 0x39800000#32 := by
  have h : k0_pay1 (F := Ideal) a t x
      = addf x (shapeCast S1x2048x1024
          (mulf (matmul dot_S2048x128_S128x1024_S2048x1024_1_0_0_1_n_n none
              (shapeCast S2048x128 a shapeCasts_S2048x128_S2048x128) (shapeCast S128x1024 t shapeCasts_S128x1024_S128x1024)
              (constant S2048x1024 .f32 0x00000000#32))
            (broadcast S2048x1024 (Scalar.ofBits (F := Ideal) .f32 0x39800000#32)))
          shapeCasts_S2048x1024_S1x2048x1024) := rfl
  rw [h, addf_apply, addUnit_at, mulf_apply, shapeCast_self, shapeCast_self, product_at, broadcast_apply]
  rfl

end Cert.KernelIdeal.BodyValue

end
-- ==== Proof.KernelBlocks.lean ====
/-
  From the kernel's blocks to its whole output array, still in padded form.

  The grid has 4 × 2 points; point `(b, h)` owns rows `2048·h … 2048·h + 2047` of batch `b`. Its input blocks are
  that same slab of `x`, rows `2048·h …` of the padded histogram (all 128 columns) and the whole padded table, so
  what it writes back is, entry by entry, the slab of ONE whole-array function `K`: `x (b, l, d)` plus the sum
  over the 128 padded positions of histogram `(l, k)` times table `(k, d)`, scaled. The eight slabs tile the
  array, so after the run the array is `K`.
-/
import proofs.«137980_j20779051778070_2_alg».proof.Proof.Gen.KernelIdeal.Value
import proofs.«137980_j20779051778070_2_alg».proof.Proof.KernelBody
import Idealize.ShloMosaic.Lib.Pipeline.Value
import Idealize.ShloMosaic.Lib.ValueIdx

set_option maxRecDepth 16384

noncomputable section

open scoped BigOperators

namespace Cert.KernelIdeal.BlockValue

open Cert.KernelIdeal Cert.KernelIdeal.Gen Idealize.ShloMosaic Idealize.ShloMosaic.ValueIdx Idealize.ShloMosaic.TcCoe Idealize.SL.Sem
open Idealize.ShloMosaic.Pipeline (Dat)

/-- The three arrays the region stages, as the region finds them: the input, -/
abbrev xArr (m : (ℓ : Loc nD τ sig) → Buf (Elt Ideal) ℓ) (c : Dev nD) : S4x4096x1024.Idx → EReal := V m c main_arg0
/-- the padded histogram, -/
abbrev hArr (m : (ℓ : Loc nD τ sig) → Buf (Elt Ideal) ℓ) (c : Dev nD) : S4096x128.Idx → EReal := V m c main_v37
/-- and the padded table. -/
abbrev pArr (m : (ℓ : Loc nD τ sig) → Buf (Elt Ideal) ℓ) (c : Dev nD) : S128x1024.Idx → EReal := V m c main_v38

/-- The output array as one function of those three: entry `i = (b, l, d)` is `x i` plus the scaled sum over the
    128 padded positions `k` of histogram `(l, k)` times table `(k, d)`. -/
def K (m : (ℓ : Loc nD τ sig) → Buf (Elt Ideal) ℓ) (c : Dev nD) : S4x4096x1024.Idx → EReal := fun i =>
  xArr m c i + (∑ k : Fin 128, hArr m c (ix2 (i 1) k) * pArr m c (ix2 k (i 2))) * Ideal.ofBits .f32 0x39800000#32

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's stored value at any entry `j` of the output block (its leading coordinate is 0). -/
theorem payload_entry (a : Vec Ideal S2048x128 .f32) (t : Vec Ideal S128x1024 .f32) (x : Vec Ideal S1x2048x1024 .f32)
    (j : S1x2048x1024.Idx) :
    k0_pay1 (F := Ideal) a t x j
      = x j + (∑ k : Fin 128, a (ix2 (j 1) k) * t (ix2 k (j 2))) * Ideal.ofBits .f32 0x39800000#32 := by
  obtain ⟨z, r, d, rfl⟩ : ∃ (z : Fin 1) (r : Fin 2048) (d : Fin 1024), j = ix3 z r d := ⟨j 0, j 1, j 2, eq_ix3 j⟩
  obtain rfl : z = 0 := Subsingleton.elim _ _
  exact BodyValue.payload_at a t x r d

/-- The printed index maps, decided over the eight points: the input slab moves with the output slab, the
    histogram's row block is the output's row block, the table never moves. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = win0_3.index t (2 : Fin 3)
    ∧ win0_1.index t (0 : Fin 2) = win0_3.index t (1 : Fin 3)
    ∧ win0_1.index t (1 : Fin 2) = 0
    ∧ win0_2.index t (0 : Fin 2) = 0
    ∧ win0_2.index t (1 : Fin 2) = 0
    ∧ win0_3.index t (2 : Fin 3) = 0
    ∧ win0_3.index t (0 : Fin 3) ≤ 3
    ∧ win0_3.index t (1 : Fin 3) ≤ 1 :=
  (by decide +kernel : ∀ t : Fin grid0.N, _)

/-- Every slab is some point's. -/
theorem index_onto : ∀ (q0 : Fin 4) (q1 : Fin 2), ∃ t : Fin cfg0.N, win0_3.index t = ![q0.val, q1.val, 0] :=
  (by decide +kernel : ∀ (q0 : Fin 4) (q1 : Fin 2), ∃ t : Fin grid0.N, win0_3.index t = ![q0.val, q1.val, 0])

/-- What point `t` writes back is slab `t` of `K`. -/
theorem flushed_eq (c : Dev nD) (t : Fin cfg0.N) :
    (dats m 0 c).flushed 3 t = ((cfg0.win 3).blk t).view.read (Elt Ideal) (K m c) := by
  rw [Value.flushed3]
  unfold out0_3
  rw [View.canon_unit_zero zeros3]
  simp only [View.ld_unit_zero (S := S2048x128) zeros2, View.ld_unit_zero (S := S128x1024) zeros2,
    View.ld_unit_zero (S := S1x2048x1024) zeros3]
  obtain ⟨e0, e1, e2, e3, e4, e5, e6, e7, e8, e9⟩ := index_facts t
  refine funext fun (j : S1x2048x1024.Idx) => ?_
  show k0_pay1 (iblk m c 1 t) (iblk m c 2 t) (iblk m c 0 t) j = K m c (((cfg0.win 3).blk t).view.emb j)
  refine (payload_entry (iblk m c 1 t) (iblk m c 2 t) (iblk m c 0 t) j).trans ?_
  show xArr m c (((cfg0.win 0).blk t).view.emb j)
      + (∑ k : Fin 128, hArr m c (((cfg0.win 1).blk t).view.emb (ix2 (j 1) k))
            * pArr m c (((cfg0.win 2).blk t).view.emb (ix2 k (j 2)))) * Ideal.ofBits .f32 0x39800000#32
    = xArr m c (((cfg0.win 3).blk t).view.emb j)
      + (∑ k : Fin 128, hArr m c (ix2 ((((cfg0.win 3).blk t).view.emb j) 1) k)
            * pArr m c (ix2 k ((((cfg0.win 3).blk t).view.emb j) 2))) * Ideal.ofBits .f32 0x39800000#32
  have hx : ((cfg0.win 0).blk t).view.emb j = ((cfg0.win 3).blk t).view.emb j := by
    funext a; apply Fin.ext
    match a with
    | ⟨0, _⟩ => show win0_0.index t (0 : Fin 3) * 1 + 1 * (j 0).val = win0_3.index t (0 : Fin 3) * 1 + 1 * (j 0).val; omega
    | ⟨1, _⟩ => show win0_0.index t (1 : Fin 3) * 2048 + 1 * (j 1).val = win0_3.index t (1 : Fin 3) * 2048 + 1 * (j 1).val; omega
    | ⟨2, _⟩ => show win0_0.index t (2 : Fin 3) * 1024 + 1 * (j 2).val = win0_3.index t (2 : Fin 3) * 1024 + 1 * (j 2).val; omega
  have hh : ∀ k : Fin 128, ((cfg0.win 1).blk t).view.emb (ix2 (j 1) k) = ix2 ((((cfg0.win 3).blk t).view.emb j) 1) k := by
    intro k; funext a; apply Fin.ext
    match a with
    | ⟨0, _⟩ => show win0_1.index t (0 : Fin 2) * 2048 + 1 * (j 1).val = win0_3.index t (1 : Fin 3) * 2048 + 1 * (j 1).val; omega
    | ⟨1, _⟩ => show win0_1.index t (1 : Fin 2) * 128 + 1 * k.val = k.val; omega
  have hp : ∀ k : Fin 128, ((cfg0.win 2).blk t).view.emb (ix2 k (j 2)) = ix2 k ((((cfg0.win 3).blk t).view.emb j) 2) := by
    intro k; funext a; apply Fin.ext
    match a with
    | ⟨0, _⟩ => show win0_2.index t (0 : Fin 2) * 128 + 1 * k.val = k.val; omega
    | ⟨1, _⟩ => show win0_2.index t (1 : Fin 2) * 1024 + 1 * (j 2).val = win0_3.index t (2 : Fin 3) * 1024 + 1 * (j 2).val; omega
  rw [hx]
  refine congrArg (xArr m c (((cfg0.win 3).blk t).view.emb j) + ·) (congrArg (· * Ideal.ofBits .f32 0x39800000#32) ?_)
  exact Finset.sum_congr rfl fun k _ =>
    congrArg₂ (· * ·) (congrArg (hArr m c) (hh k)) (congrArg (pArr m c) (hp k))

/-- An index of the array is in point `t`'s slab iff each coordinate is in the slab's range on its axis. -/
theorem mem_slab (t : Fin cfg0.N) (i : S4x4096x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v39).slice (win0_3.rect t)).set ↔ _
  rw [View.set_slice_whole, Rect.mem_set_unit]
  exact Iff.rfl

/-- The eight slabs tile the array: entry `(b, l, d)` lies in the slab of point `(b, l / 2048)`. -/
theorem covered (i : S4x4096x1024.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 1024 := (i 2).isLt
  obtain ⟨t, ht⟩ := index_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_slab]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 1024 ≤ (i 2).val ∧ (i 2).val < win0_3.index t (2 : Fin 3) * 1024 + 1024; omega

/-- After the run the output array is `K`. -/
theorem final (c : Dev nD) : (dats m 0 c).arrAt 3 cfg0.N = K m c :=
  (dats m 0 c).arrAt_eq_of_cover 3 (K m c) (fun t _ => flushed_eq m c t) covered

/-- The kernel's run with its result array named: `K`, the arguments unchanged. -/
theorem run : θ_run defs (onTc (τ := τ) (main (F := Ideal))) ⟨m, fun _ => 0, ρ⟩ fun r => ∀ c : Dev nD,
      r.2.mem ((c : Thread nD τ).loc main_v39) = K m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BlockValue

end
-- ==== Proof.Count.lean ====
/-
  The counting fact behind the relative-position histogram, over the naturals and integers only.

  For a query position `l` and a key position `j` (both below 4096) the bucket of the pair is the clipped
  offset `min 32 (max (-32) (l - j)) + 32`, a number in `[0, 64]`. Row `l` of the histogram counts, for each
  bucket `k`, the keys `j` that fall in it. The count has a closed form: every key at distance at least 32 to the
  right falls in bucket 0 (there are `4096 - l - 32` of them, none when that is negative), every key at distance
  at least 32 to the left falls in bucket 64 (`l + 1 - 32` of them), and a bucket strictly between holds exactly
  the one key `j = l + 32 - k` when that is a position, and nothing otherwise.
-/
import Mathlib

namespace Cert.RelPos

/-- The bucket of the pair (query `l`, key `j`): the offset `l - j` clipped to `[-32, 32]`, shifted to `[0, 64]`. -/
def bucket (l j : ℕ) : ℤ := min 32 (max (-32) ((l : ℤ) - (j : ℤ))) + 32

/-- How many of the 4096 keys fall in bucket `k` of query `l`. -/
def bucketCount (l k : ℕ) : ℕ := ((Finset.range 4096).filter fun j => bucket l j = (k : ℤ)).card

/-- The same count in closed form (truncated subtraction: an empty range counts zero). -/
def closedCount (l k : ℕ) : ℕ :=
  if k = 0 then 4096 - l - 32
  else if k = 64 then l + 1 - 32
  else if k ≤ l + 32 ∧ l + 32 < k + 4096 then 1 else 0

/-- The clipped offset written out by cases: it is `0` from `l - j ≤ -32` down, `64` from `l - j ≥ 32` up,
and `l - j + 32` in between. -/
theorem bucket_cases (l j : ℕ) :
    ((l : ℤ) - (j : ℤ) ≤ -32 ∧ bucket l j = 0) ∨
    (32 ≤ (l : ℤ) - (j : ℤ) ∧ bucket l j = 64) ∨
    (-32 < (l : ℤ) - (j : ℤ) ∧ (l : ℤ) - (j : ℤ) < 32 ∧ bucket l j = (l : ℤ) - (j : ℤ) + 32) := by
  unfold bucket
  rcases le_or_gt ((l : ℤ) - (j : ℤ)) (-32) with h | h
  · left
    refine ⟨h, ?_⟩
    rw [max_eq_left h, min_eq_right (by norm_num)]
    norm_num
  · rcases le_or_gt 32 ((l : ℤ) - (j : ℤ)) with h' | h'
    · right; left
      refine ⟨h', ?_⟩
      rw [max_eq_right (by omega), min_eq_left h']
      norm_num
    · right; right
      refine ⟨h, h', ?_⟩
      rw [max_eq_right (by omega), min_eq_right (by omega)]

/-- A key falls in the lowest bucket exactly when it lies at least 32 places to the right of the query. -/
theorem bucket_eq_zero_iff (l j : ℕ) : bucket l j = ((0 : ℕ) : ℤ) ↔ l + 32 ≤ j := by
  rcases bucket_cases l j with ⟨h, e⟩ | ⟨h, e⟩ | ⟨h, h', e⟩ <;> rw [e] <;> omega

/-- A key falls in the highest bucket exactly when it lies at least 32 places to the left of the query. -/
theorem bucket_eq_top_iff (l j : ℕ) : bucket l j = ((64 : ℕ) : ℤ) ↔ j + 32 ≤ l := by
  rcases bucket_cases l j with ⟨h, e⟩ | ⟨h, e⟩ | ⟨h, h', e⟩ <;> rw [e] <;> omega

/-- A key falls in a bucket `k` strictly between the two ends exactly when its offset is `k - 32`. -/
theorem bucket_eq_mid_iff (l j k : ℕ) (h0 : k ≠ 0) (h64 : k ≠ 64) (hk : k < 65) :
    bucket l j = (k : ℤ) ↔ j + k = l + 32 := by
  rcases bucket_cases l j with ⟨h, e⟩ | ⟨h, e⟩ | ⟨h, h', e⟩ <;> rw [e] <;> omega

/-- The histogram's row `l` in closed form. -/
theorem bucketCount_eq_closedCount (l k : ℕ) (hl : l < 4096) (hk : k < 65) :
    bucketCount l k = closedCount l k := by
  unfold bucketCount closedCount
  by_cases h0 : k = 0
  · -- lowest bucket: the keys `j` with `l + 32 ≤ j < 4096`
    subst h0
    rw [if_pos rfl]
    have hset : ((Finset.range 4096).filter fun j => bucket l j = ((0 : ℕ) : ℤ))
        = Finset.Ico (l + 32) 4096 := by
      ext j
      simp only [Finset.mem_filter, Finset.mem_range, Finset.mem_Ico, bucket_eq_zero_iff]
      omega
    rw [hset, Nat.card_Ico]
    omega
  · rw [if_neg h0]
    by_cases h64 : k = 64
    · -- highest bucket: the keys `j` with `j + 32 ≤ l`, that is `j < l + 1 - 32`
      subst h64
      rw [if_pos rfl]
      have hset : ((Finset.range 4096).filter fun j => bucket l j = ((64 : ℕ) : ℤ))
          = Finset.range (l + 1 - 32) := by
        ext j
        simp only [Finset.mem_filter, Finset.mem_range, bucket_eq_top_iff]
        omega
      rw [hset, Finset.card_range]
    · rw [if_neg h64]
      by_cases hin : k ≤ l + 32 ∧ l + 32 < k + 4096
      · -- a bucket in between that is hit: by the single key `j = l + 32 - k`
        rw [if_pos hin]
        have hset : ((Finset.range 4096).filter fun j => bucket l j = (k : ℤ))
            = {l + 32 - k} := by
          ext j
          simp only [Finset.mem_filter, Finset.mem_range, Finset.mem_singleton,
            bucket_eq_mid_iff l j k h0 h64 hk]
          omega
        rw [hset, Finset.card_singleton]
      · -- a bucket in between that no key reaches
        rw [if_neg hin]
        have hset : ((Finset.range 4096).filter fun j => bucket l j = (k : ℤ)) = ∅ := by
          ext j
          simp only [Finset.mem_filter, Finset.mem_range, Finset.notMem_empty, iff_false,
            bucket_eq_mid_iff l j k h0 h64 hk]
          omega
        rw [hset, Finset.card_empty]

end Cert.RelPos
-- ==== Proof.Spec.lean ====
/-
  What both programs compute, as one function of the two argument arrays.

  Entry `(b, l, d)` of the result is `x (b, l, d)` plus the mean over the 4096 keys of the relative-position
  embedding of the pair (query `l`, key `j`): the sum over the 65 buckets `k` of (how many keys fall in bucket
  `k` of query `l`) times `pe (k, d)`, scaled by `2⁻¹²` (the word `0x39800000`, the same in both programs, so
  it is never evaluated). The count enters in its closed form (`closedCount`).
-/
import proofs.«137980_j20779051778070_2_alg».proof.Proof.Count
import Idealize.ShloMosaic.PureOps.Ideal
import Idealize.ShloMosaic.Lib.ValueIdx

noncomputable section

open scoped BigOperators

namespace Cert.RelPos

open Idealize.ShloMosaic Idealize.ShloMosaic.ValueIdx

/-- The shape of `x` and of the result. -/
abbrev SX : Shape := ⟨3, ![4, 4096, 1024]⟩
/-- The shape of the embedding table. -/
abbrev SP : Shape := ⟨2, ![65, 1024]⟩

/-- The histogram's entry `(l, k)` as an extended real. -/
def cnt (l k : ℕ) : EReal := (((closedCount l k : ℕ) : ℝ) : EReal)

/-- The result's entry at coordinates `(b, l, d)`. -/
def entry (x : SX.Idx → EReal) (pe : SP.Idx → EReal) (b : Fin 4) (l : Fin 4096) (d : Fin 1024) : EReal :=
  x (ix3 b l d) + (∑ k : Fin 65, cnt l.val k.val * pe (ix2 k d)) * Ideal.ofBits .f32 0x39800000#32

/-- The result array as one function of the argument arrays. -/
def G (x : SX.Idx → EReal) (pe : SP.Idx → EReal) : SX.Idx → EReal :=
  fun i => entry x pe (i 0) (i 1) (i 2)

theorem G_apply (x : SX.Idx → EReal) (pe : SP.Idx → EReal) (b : Fin 4) (l : Fin 4096) (d : Fin 1024) :
    G x pe (ix3 b l d) = entry x pe b l d := rfl

end Cert.RelPos

end
-- ==== Proof.KernelHost.lean ====
/-
  What the kernel's two staged host arrays hold, index by index, when its one region is entered.

  Before the region the host program builds two arrays. The first is the 4096 × 65 histogram of clipped
  relative positions in closed form, padded on the right with 63 columns of zero: entry `(l, k)` is, for `k = 0`,
  `4096 - l - 32` cut off below at zero; for `k = 64`, `l - 32 + 1` cut off below at zero; and for a bucket strictly
  between, one when the single candidate key `l - (k - 32)` is a position (`0 ≤ · < 4096`) and zero otherwise. The
  index arithmetic is on 32-bit words; for `l < 4096` and `k < 65` every intermediate value lies within a few
  thousand of zero, so no word wraps and each signed reading is the integer expression itself. That is the closed
  form `closedCount l k` as a real number. The second array is the 65 × 1024 embedding table padded below with
  63 rows of zero. The padding value of both is the integer word zero converted to a float, which is the real zero.
-/
import proofs.«137980_j20779051778070_2_alg».proof.Proof.Gen.KernelIdeal.Frame
import proofs.«137980_j20779051778070_2_alg».proof.Proof.Spec
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.HostValue

open Cert.KernelIdeal Cert.KernelIdeal.Gen Idealize.ShloMosaic Idealize.ShloMosaic.ValueIdx Idealize.ShloMosaic.TcCoe Idealize.SL.Sem

/-! ## The histogram as a term over the two iotas -/

/-- The query position `l` as a 32-bit word, a column of 4096. -/
def qcol : S4096x1.Idx → BitVec 32 :=
  broadcastInDim S4096x1 ![0] Facts₀.bcast_S4096_S4096x1_0 (iotaInDim S4096 32 0)

/-- The bucket number `k` as a 32-bit word, a row of 65. -/
def krow : S1x65.Idx → BitVec 32 :=
  broadcastInDim S1x65 ![1] Facts₀.bcast_S65_S1x65_1 (iotaInDim S65 32 0)

/-- The one key that can fall in a middle bucket: `l - (k - 32)`, in 32-bit words. -/
def jcand : S4096x65.Idx → BitVec 32 :=
  subi (broadcastInDim S4096x65 ![0, 1] Facts₀.bcast_S4096x1_S4096x65_0_1 qcol)
    (broadcastInDim S4096x65 ![0, 1] Facts₀.bcast_S1x65_S4096x65_0_1
      (subi krow (broadcastInDim S1x65 ![] Facts₀.bcast_S_S1x65 (constantI S_ 32 32#32))))

/-- A middle bucket's count: one when that key is a position (`0 ≤ j < 4096`), else zero. -/
def mid : S4096x65.Idx → EReal :=
  uitofp (F := Ideal) .f32
    (andi (cmpi .sge jcand (broadcastInDim S4096x65 ![] Facts₀.bcast_S_S4096x65 (constantI S_ 32 0#32)))
      (cmpi .slt jcand (broadcastInDim S4096x65 ![] Facts₀.bcast_S_S4096x65 (constantI S_ 32 4096#32))))

/-- Bucket 0's count: `4096 - l - 32`, not below zero. -/
def leftCol : S4096x1.Idx → EReal :=
  maximumf (F := Ideal)
    (sitofp (F := Ideal) .f32
      (subi (subi (broadcastInDim S4096x1 ![] Facts₀.bcast_S_S4096x1 (constantI S_ 32 4096#32)) qcol)
        (broadcastInDim S4096x1 ![] Facts₀.bcast_S_S4096x1 (constantI S_ 32 32#32))))
    (broadcastInDim S4096x1 ![] Facts₀.bcast_S_S4096x1 (constant (F := Ideal) S_ .f32 0x00000000#32))

/-- Bucket 64's count: `l - 32 + 1`, not below zero. -/
def rightCol : S4096x1.Idx → EReal :=
  maximumf (F := Ideal)
    (sitofp (F := Ideal) .f32
      (addi (subi qcol (broadcastInDim S4096x1 ![] Facts₀.bcast_S_S4096x1 (constantI S_ 32 32#32)))
        (broadcastInDim S4096x1 ![] Facts₀.bcast_S_S4096x1 (constantI S_ 32 1#32))))
    (broadcastInDim S4096x1 ![] Facts₀.bcast_S_S4096x1 (constant (F := Ideal) S_ .f32 0x00000000#32))

/-- The 4096 × 65 histogram: bucket 0's column, bucket 64's column, the middle buckets between. -/
def hist : S4096x65.Idx → EReal :=
  select
    (broadcastInDim S4096x65 ![0, 1] Facts₀.bcast_S1x65_S4096x65_0_1
      (cmpi .eq krow (broadcastInDim S1x65 ![] Facts₀.bcast_S_S1x65 (constantI S_ 32 0#32))))
    (broadcastInDim S4096x65 ![0, 1] Facts₀.bcast_S4096x1_S4096x65_0_1 leftCol)
    (select
      (broadcastInDim S4096x65 ![0, 1] Facts₀.bcast_S1x65_S4096x65_0_1
        (cmpi .eq krow (broadcastInDim S1x65 ![] Facts₀.bcast_S_S1x65 (constantI S_ 32 64#32))))
      (broadcastInDim S4096x65 ![0, 1] Facts₀.bcast_S4096x1_S4096x65_0_1 rightCol)
      mid)

/-! ## The layout operations read at an index -/

/-- A column of 4096 spread over 65 columns: entry `(l, k)` is the column's entry `l`. -/
theorem spread_col_at {α : Type} (y : S4096x1.Idx → α) (l : Fin 4096) (k : Fin 65) :
    broadcastInDim S4096x65 ![0, 1] Facts₀.bcast_S4096x1_S4096x65_0_1 y (ix2 l k) = y (ix2 l (0 : Fin 1)) :=
  broadcastInDim_apply _ Facts₀.bcast_S4096x1_S4096x65_0_1 y (ix2 l k) (ix2 l (0 : Fin 1)) (fun a => match a with
    | ⟨0, _⟩ => by show l.val = if (4096 : Nat) = 1 then 0 else l.val; rw [if_neg (by decide)]
    | ⟨1, _⟩ => by show 0 = if (1 : Nat) = 1 then 0 else k.val; rw [if_pos rfl])

/-- A row of 65 spread over 4096 rows: entry `(l, k)` is the row's entry `k`. -/
theorem spread_row_at {α : Type} (y : S1x65.Idx → α) (l : Fin 4096) (k : Fin 65) :
    broadcastInDim S4096x65 ![0, 1] Facts₀.bcast_S1x65_S4096x65_0_1 y (ix2 l k) = y (ix2 (0 : Fin 1) k) :=
  broadcastInDim_apply _ Facts₀.bcast_S1x65_S4096x65_0_1 y (ix2 l k) (ix2 (0 : Fin 1) k) (fun a => match a with
    | ⟨0, _⟩ => by show 0 = if (1 : Nat) = 1 then 0 else l.val; rw [if_pos rfl]
    | ⟨1, _⟩ => by show k.val = if (65 : Nat) = 1 then 0 else k.val; rw [if_neg (by decide)])

/-- The column of query positions holds `l` at row `l`. -/
theorem qcol_at (l : Fin 4096) : qcol (ix2 l (0 : Fin 1)) = BitVec.ofNat 32 l.val := by
  unfold qcol
  exact (broadcastInDim_apply _ Facts₀.bcast_S4096_S4096x1_0 (iotaInDim S4096 32 0) (ix2 l (0 : Fin 1)) (ix1 l) (fun a => match a with
    | ⟨0, _⟩ => by show l.val = if (4096 : Nat) = 1 then 0 else l.val; rw [if_neg (by decide)]))

/-- The row of bucket numbers holds `k` at column `k`. -/
theorem krow_at (k : Fin 65) : krow (ix2 (0 : Fin 1) k) = BitVec.ofNat 32 k.val := by
  unfold krow
  exact (broadcastInDim_apply _ Facts₀.bcast_S65_S1x65_1 (iotaInDim S65 32 0) (ix2 (0 : Fin 1) k) (ix1 k) (fun a => match a with
    | ⟨0, _⟩ => by show k.val = if (65 : Nat) = 1 then 0 else k.val; rw [if_neg (by decide)]))

/-- The candidate key at `(l, k)`, as words. -/
theorem jcand_at (l : Fin 4096) (k : Fin 65) :
    jcand (ix2 l k) = BitVec.ofNat 32 l.val - (BitVec.ofNat 32 k.val - 32#32) := by
  unfold jcand
  show IntOp.subi (broadcastInDim S4096x65 ![0, 1] Facts₀.bcast_S4096x1_S4096x65_0_1 qcol (ix2 l k))
      (broadcastInDim S4096x65 ![0, 1] Facts₀.bcast_S1x65_S4096x65_0_1
        (subi krow (broadcastInDim S1x65 ![] Facts₀.bcast_S_S1x65 (constantI S_ 32 32#32))) (ix2 l k)) = _
  rw [spread_col_at, spread_row_at, qcol_at]
  show BitVec.ofNat 32 l.val - (krow (ix2 (0 : Fin 1) k) - 32#32) = _
  rw [krow_at]

/-- A middle bucket's entry, as the word of the two comparisons read unsigned. -/
theorem mid_at (l : Fin 4096) (k : Fin 65) :
    mid (ix2 l k)
      = (((IntOp.andi (IntOp.cmpi .sge (BitVec.ofNat 32 l.val - (BitVec.ofNat 32 k.val - 32#32)) 0#32)
            (IntOp.cmpi .slt (BitVec.ofNat 32 l.val - (BitVec.ofNat 32 k.val - 32#32)) 4096#32)).toNat : ℝ) : EReal) := by
  unfold mid
  show (((IntOp.andi (IntOp.cmpi .sge (jcand (ix2 l k)) 0#32) (IntOp.cmpi .slt (jcand (ix2 l k)) 4096#32)).toNat : ℝ) : EReal) = _
  rw [jcand_at]

/-- Bucket 0's column at row `l`. -/
theorem leftCol_at (l : Fin 4096) :
    leftCol (ix2 l (0 : Fin 1)) = max ((((4096#32 - BitVec.ofNat 32 l.val - 32#32).toInt : ℝ) : EReal)) 0 := by
  unfold leftCol
  show max ((((4096#32 - qcol (ix2 l (0 : Fin 1)) - 32#32).toInt : ℝ) : EReal)) (Ideal.ofBits .f32 0x00000000#32) = _
  rw [qcol_at, Ideal.ofBits_zero_f32]

/-- Bucket 64's column at row `l`. -/
theorem rightCol_at (l : Fin 4096) :
    rightCol (ix2 l (0 : Fin 1)) = max ((((BitVec.ofNat 32 l.val - 32#32 + 1#32).toInt : ℝ) : EReal)) 0 := by
  unfold rightCol
  show max ((((qcol (ix2 l (0 : Fin 1)) - 32#32 + 1#32).toInt : ℝ) : EReal)) (Ideal.ofBits .f32 0x00000000#32) = _
  rw [qcol_at, Ideal.ofBits_zero_f32]

/-- The histogram at `(l, k)`, in words. -/
theorem hist_at_words (l : Fin 4096) (k : Fin 65) :
    hist (ix2 l k)
      = Scalar.select (IntOp.cmpi .eq (BitVec.ofNat 32 k.val) 0#32)
          (max ((((4096#32 - BitVec.ofNat 32 l.val - 32#32).toInt : ℝ) : EReal)) 0)
          (Scalar.select (IntOp.cmpi .eq (BitVec.ofNat 32 k.val) 64#32)
            (max ((((BitVec.ofNat 32 l.val - 32#32 + 1#32).toInt : ℝ) : EReal)) 0)
            (((IntOp.andi (IntOp.cmpi .sge (BitVec.ofNat 32 l.val - (BitVec.ofNat 32 k.val - 32#32)) 0#32)
              (IntOp.cmpi .slt (BitVec.ofNat 32 l.val - (BitVec.ofNat 32 k.val - 32#32)) 4096#32)).toNat : ℝ) : EReal)) := by
  unfold hist
  rw [select_apply, select_apply, spread_row_at, spread_row_at, spread_col_at, spread_col_at, leftCol_at, rightCol_at, mid_at]
  show Scalar.select (IntOp.cmpi .eq (krow (ix2 (0 : Fin 1) k)) 0#32) _
      (Scalar.select (IntOp.cmpi .eq (krow (ix2 (0 : Fin 1) k)) 64#32) _ _) = _
  rw [krow_at]

/-! ## The words of the histogram, as numbers

For `l < 4096` and `k < 65` every 32-bit difference and sum below stays strictly between `-2³¹` and `2³¹`, so
each word read as a signed integer is the integer expression itself: nothing wraps. -/

/-- A word whose unsigned reading is the residue of an integer `z` in the signed range reads, signed, as `z`. -/
theorem toInt_of_residue (x : BitVec 32) (z : ℤ) (hz : -2147483648 ≤ z ∧ z < 2147483648)
    (hx : (x.toNat : ℤ) = z % 4294967296) : x.toInt = z := by
  rw [BitVec.toInt_eq_toNat_cond]
  split <;> omega

theorem leftWord_toInt (l : ℕ) (hl : l < 4096) :
    (4096#32 - BitVec.ofNat 32 l - 32#32).toInt = 4064 - (l : ℤ) := by
  apply toInt_of_residue _ _ (by omega)
  simp only [BitVec.toNat_sub, BitVec.toNat_ofNat]
  omega

theorem rightWord_toInt (l : ℕ) (hl : l < 4096) :
    (BitVec.ofNat 32 l - 32#32 + 1#32).toInt = (l : ℤ) - 31 := by
  apply toInt_of_residue _ _ (by omega)
  simp only [BitVec.toNat_sub, BitVec.toNat_add, BitVec.toNat_ofNat]
  omega

theorem keyWord_toInt (l k : ℕ) (hl : l < 4096) (hk : k < 65) :
    (BitVec.ofNat 32 l - (BitVec.ofNat 32 k - 32#32)).toInt = (l : ℤ) + 32 - (k : ℤ) := by
  apply toInt_of_residue _ _ (by omega)
  simp only [BitVec.toNat_sub, BitVec.toNat_ofNat]
  omega

/-- Is the bucket number the word `n`? (for a bucket number and an `n` below `2³²`) -/
theorem eqWord (k n : ℕ) (hk : k < 4294967296) (hn : n < 4294967296) :
    IntOp.cmpi .eq (BitVec.ofNat 32 k) (BitVec.ofNat 32 n) = if k = n then 1#1 else 0#1 := by
  unfold IntOp.cmpi
  by_cases h : k = n
  · subst h; rw [if_pos rfl]; simp
  · rw [if_neg h]
    have hne : BitVec.ofNat 32 k ≠ BitVec.ofNat 32 n := by
      intro e
      have := congrArg BitVec.toNat e
      simp only [BitVec.toNat_ofNat] at this
      omega
    rw [beq_eq_false_iff_ne.mpr hne]
    rfl

/-- The one-bit word of the two comparisons, read unsigned: one exactly when the candidate key is a position. -/
theorem midWord (l k : ℕ) (hl : l < 4096) (hk : k < 65) :
    (IntOp.andi (IntOp.cmpi .sge (BitVec.ofNat 32 l - (BitVec.ofNat 32 k - 32#32)) 0#32)
        (IntOp.cmpi .slt (BitVec.ofNat 32 l - (BitVec.ofNat 32 k - 32#32)) 4096#32)).toNat
      = if k ≤ l + 32 ∧ l + 32 < k + 4096 then 1 else 0 := by
  have hj := keyWord_toInt l k hl hk
  unfold IntOp.andi IntOp.cmpi
  simp only [BitVec.sle, BitVec.slt, hj]
  have h0 : (0#32).toInt = 0 := by decide
  have h1 : (4096#32).toInt = 4096 := by decide
  rw [h0, h1]
  by_cases ha : k ≤ l + 32
  · by_cases hb : l + 32 < k + 4096
    · rw [if_pos ⟨ha, hb⟩, decide_eq_true (by omega : (0 : ℤ) ≤ (l : ℤ) + 32 - (k : ℤ)),
        decide_eq_true (by omega : (l : ℤ) + 32 - (k : ℤ) < 4096)]
      rfl
    · rw [if_neg (fun h => hb h.2), decide_eq_true (by omega : (0 : ℤ) ≤ (l : ℤ) + 32 - (k : ℤ)),
        decide_eq_false (by omega : ¬ (l : ℤ) + 32 - (k : ℤ) < 4096)]
      rfl
  · rw [if_neg (fun h => ha h.1), decide_eq_false (by omega : ¬ (0 : ℤ) ≤ (l : ℤ) + 32 - (k : ℤ))]
    by_cases hb : (l : ℤ) + 32 - (k : ℤ) < 4096
    · rw [decide_eq_true hb]; rfl
    · rw [decide_eq_false hb]; rfl

/-- An integer as an extended real, cut off below at zero, is its truncation to a natural number. -/
theorem max_intCast_zero (z : ℤ) : max (((z : ℝ) : EReal)) 0 = (((z.toNat : ℕ) : ℝ) : EReal) := by
  rcases le_total 0 z with h | h
  · lift z to ℕ using h
    rw [max_eq_left (by exact_mod_cast Nat.zero_le z)]
    simp
  · rw [max_eq_right (by exact_mod_cast h), Int.toNat_of_nonpos h]
    simp

/-- The histogram's words at `(l, k)` are the closed-form count. -/
theorem words_count (l k : ℕ) (hl : l < 4096) (hk : k < 65) :
    Scalar.select (IntOp.cmpi .eq (BitVec.ofNat 32 k) 0#32)
        (max ((((4096#32 - BitVec.ofNat 32 l - 32#32).toInt : ℝ) : EReal)) 0)
        (Scalar.select (IntOp.cmpi .eq (BitVec.ofNat 32 k) 64#32)
          (max ((((BitVec.ofNat 32 l - 32#32 + 1#32).toInt : ℝ) : EReal)) 0)
          (((IntOp.andi (IntOp.cmpi .sge (BitVec.ofNat 32 l - (BitVec.ofNat 32 k - 32#32)) 0#32)
            (IntOp.cmpi .slt (BitVec.ofNat 32 l - (BitVec.ofNat 32 k - 32#32)) 4096#32)).toNat : ℝ) : EReal))
      = (((Cert.RelPos.closedCount l k : ℕ) : ℝ) : EReal) := by
  rw [leftWord_toInt l hl, rightWord_toInt l hl, midWord l k hl hk, max_intCast_zero, max_intCast_zero,
    eqWord k 0 (by omega) (by omega), eqWord k 64 (by omega) (by omega)]
  unfold Cert.RelPos.closedCount
  by_cases h0 : k = 0
  · rw [if_pos h0, if_pos h0, select_one]
    congr 2
    omega
  · rw [if_neg h0, if_neg h0, select_zero]
    by_cases h64 : k = 64
    · rw [if_pos h64, if_pos h64, select_one]
      congr 2
      omega
    · rw [if_neg h64, if_neg h64, select_zero]

/-! ## The two pads read at an index -/

/-- The padding value of both pads: the integer word zero, converted to a float, is the real number zero. -/
theorem padValue_eq :
    (sitofp (F := Ideal) .f32 (constantI S_ 32 0#32) : S_.Idx → EReal) (Shape.Idx.first Facts₀.h_S_) = 0 := by
  show ((BitVec.toInt (0#32) : ℝ) : EReal) = 0
  simp

/-- An array of 65 rows padded below to 128 rows: row `k` is the array's row `k` for `k < 65`, and zero below. -/
theorem pad_rows_at (x : S65x1024.Idx → EReal) (k : Fin 128) (d : Fin 1024) :
    pad S128x1024 ![0, 0] ![63, 0] ![0, 0] x (sitofp (F := Ideal) .f32 (constantI S_ 32 0#32))
        Facts₀.pads_S65x1024_S128x1024_0630_000 Facts₀.h_S_ (ix2 k d)
      = if h : k.val < 65 then x (ix2 ⟨k.val, h⟩ d) else 0 := by
  by_cases h : k.val < 65
  · rw [dif_pos h]
    exact pad_apply_of_inside _ _ _ x _ _ _ (ix2 k d) (ix2 ⟨k.val, h⟩ d) (fun a => match a with
      | ⟨0, _⟩ => by show k.val = 0 + k.val * (0 + 1); omega
      | ⟨1, _⟩ => by show d.val = 0 + d.val * (0 + 1); omega)
  · rw [dif_neg h, pad_apply_of_not_inside _ _ _ x _ _ _ (ix2 k d) (0 : Fin 2) (by
      intro hin
      have e : (k.val - 0) / (0 + 1) < 65 := hin.2.2
      omega)]
    exact padValue_eq

/-- An array of 65 columns padded on the right to 128 columns: column `k` is the array's column `k` for `k < 65`,
    and zero to the right. -/
theorem pad_cols_at (x : S4096x65.Idx → EReal) (l : Fin 4096) (k : Fin 128) :
    pad S4096x128 ![0, 0] ![0, 63] ![0, 0] x (sitofp (F := Ideal) .f32 (constantI S_ 32 0#32))
        Facts₀.pads_S4096x65_S4096x128_000_0630 Facts₀.h_S_ (ix2 l k)
      = if h : k.val < 65 then x (ix2 l ⟨k.val, h⟩) else 0 := by
  by_cases h : k.val < 65
  · rw [dif_pos h]
    exact pad_apply_of_inside _ _ _ x _ _ _ (ix2 l k) (ix2 l ⟨k.val, h⟩) (fun a => match a with
      | ⟨0, _⟩ => by show l.val = 0 + l.val * (0 + 1); omega
      | ⟨1, _⟩ => by show k.val = 0 + k.val * (0 + 1); omega)
  · rw [dif_neg h, pad_apply_of_not_inside _ _ _ x _ _ _ (ix2 l k) (1 : Fin 2) (by
      intro hin
      have e : (k.val - 0) / (0 + 1) < 65 := hin.2.2
      omega)]
    exact padValue_eq

/-! ## The two arrays as the region finds them -/

variable (m : (ℓ : Loc nD τ sig) → Buf (Elt Ideal) ℓ) (c : Dev nD)

/-- The table the region's third window stages is the embedding table padded below with 63 rows of the padding value. -/
theorem table_eq :
    (V (F := Ideal) m c main_v38 : S128x1024.Idx → EReal)
      = pad S128x1024 ![0, 0] ![63, 0] ![0, 0]
          (m ((c : Thread nD τ).loc main_arg1) : S65x1024.Idx → EReal)
          (sitofp (F := Ideal) .f32 (constantI S_ 32 0#32))
          Facts₀.pads_S65x1024_S128x1024_0630_000 Facts₀.h_S_ := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  rfl

/-- The array the region's second window stages is the histogram padded on the right with 63 columns of the padding value. -/
theorem counts_eq :
    (V (F := Ideal) m c main_v37 : S4096x128.Idx → EReal)
      = pad S4096x128 ![0, 0] ![0, 63] ![0, 0] hist
          (sitofp (F := Ideal) .f32 (constantI S_ 32 0#32))
          Facts₀.pads_S4096x65_S4096x128_000_0630 Facts₀.h_S_ := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  rfl

/-- Row `k` of the staged table: the embedding row `k` for `k < 65`, zero for the 63 padding rows. -/
theorem table_at (k : Fin 128) (d : Fin 1024) :
    (V (F := Ideal) m c main_v38 : S128x1024.Idx → EReal) (ix2 k d)
      = (if h : k.val < 65 then (m ((c : Thread nD τ).loc main_arg1) : S65x1024.Idx → EReal) (ix2 ⟨k.val, h⟩ d) else 0 : EReal) := by
  rw [table_eq]
  exact pad_rows_at _ k d

/-- Entry `(l, k)` of the staged counts: the closed-form count for a bucket `k < 65`, zero for the 63 padding columns. -/
theorem counts_at (l : Fin 4096) (k : Fin 128) :
    (V (F := Ideal) m c main_v37 : S4096x128.Idx → EReal) (ix2 l k)
      = if k.val < 65 then Cert.RelPos.cnt l.val k.val else 0 := by
  rw [counts_eq, pad_cols_at]
  by_cases h : k.val < 65
  · rw [dif_pos h, if_pos h, hist_at_words l ⟨k.val, h⟩]
    exact words_count l.val k.val l.isLt h
  · rw [dif_neg h, if_neg h]

end Cert.KernelIdeal.HostValue
-- ==== Proof.PadSum.lean ====
/-
  A sum over 128 positions whose last 63 terms vanish is the sum over the first 65: the index set splits as
  65 + 63, and the second part contributes nothing.
-/
import Mathlib

open scoped BigOperators

namespace Cert.RelPos

theorem sum_first65 {M : Type} [AddCommMonoid M] (f : Fin 128 → M) (h : ∀ k : Fin 128, 65 ≤ k.val → f k = 0) :
    ∑ k : Fin 128, f k = ∑ k : Fin 65, f (Fin.castLE (by norm_num) k) := by
  have e : ∑ k : Fin 128, f k = ∑ k : Fin (65 + 63), f k := rfl
  rw [e, Fin.sum_univ_add]
  have z : ∑ j : Fin 63, f (Fin.natAdd 65 j) = 0 :=
    Finset.sum_eq_zero fun j _ => h _ (by simp [Fin.natAdd])
  rw [z, add_zero]
  rfl

end Cert.RelPos
-- ==== Proof.KernelClosed.lean ====
/-
  The kernel's output array in closed form.

  The kernel sums over 128 padded positions; the histogram's columns 65 … 127 and the table's rows 65 … 127 are
  zero, so those 63 terms are `0 · 0 = 0` and drop out, and on the first 65 positions the padded arrays are the
  histogram's closed form and the table itself. What is left is the specification's entry.
-/
import proofs.«137980_j20779051778070_2_alg».proof.Proof.KernelBlocks
import proofs.«137980_j20779051778070_2_alg».proof.Proof.KernelHost
import proofs.«137980_j20779051778070_2_alg».proof.Proof.PadSum
import proofs.«137980_j20779051778070_2_alg».proof.Proof.Spec

noncomputable section

open scoped BigOperators

namespace Cert.KernelIdeal.ClosedValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The padded sum at `(l, d)` is the sum over the 65 buckets of count times table entry. -/
theorem padded_sum (c : Dev nD) (l : Fin 4096) (d : Fin 1024) :
    (∑ k : Fin 128, BlockValue.hArr m c (ix2 l k) * BlockValue.pArr m c (ix2 k d))
      = ∑ k : Fin 65, Cert.RelPos.cnt l.val k.val
          * (m ((c : Thread nD τ).loc main_arg1) : S65x1024.Idx → EReal) (ix2 k d) := by
  rw [Cert.RelPos.sum_first65 _ (fun k hk => by
    show BlockValue.hArr m c (ix2 l k) * BlockValue.pArr m c (ix2 k d) = 0
    rw [show BlockValue.hArr m c (ix2 l k) = 0 from (HostValue.counts_at m c l k).trans (if_neg (by omega)), zero_mul])]
  refine Finset.sum_congr rfl fun k _ => ?_
  have hk : (Fin.castLE (by norm_num : 65 ≤ 128) k).val < 65 := k.isLt
  rw [show BlockValue.hArr m c (ix2 l (Fin.castLE (by norm_num : 65 ≤ 128) k)) = Cert.RelPos.cnt l.val k.val from
      (HostValue.counts_at m c l _).trans (if_pos hk),
    show BlockValue.pArr m c (ix2 (Fin.castLE (by norm_num : 65 ≤ 128) k) d)
        = (m ((c : Thread nD τ).loc main_arg1) : S65x1024.Idx → EReal) (ix2 k d) from
      (HostValue.table_at m c _ d).trans (dif_pos hk)]

/-- The kernel's output array is the specification's function of the two argument arrays. -/
theorem K_eq_G (c : Dev nD) :
    BlockValue.K m c = Cert.RelPos.G (m ((c : Thread nD τ).loc main_arg0)) (m ((c : Thread nD τ).loc main_arg1)) := by
  funext i
  obtain ⟨b, l, d, rfl⟩ : ∃ (b : Fin 4) (l : Fin 4096) (d : Fin 1024), i = ix3 b l d := ⟨i 0, i 1, i 2, eq_ix3 i⟩
  rw [Cert.RelPos.G_apply]
  show BlockValue.xArr m c (ix3 b l d)
      + (∑ k : Fin 128, BlockValue.hArr m c (ix2 l k) * BlockValue.pArr m c (ix2 k d)) * Ideal.ofBits .f32 0x39800000#32
    = Cert.RelPos.entry _ _ b l d
  rw [padded_sum,
    show BlockValue.xArr m c = (m ((c : Thread nD τ).loc main_arg0) : S4x4096x1024.Idx → EReal) from V_main_arg0 m c]
  rfl

/-- The kernel's run with its result at the specification's function. -/
theorem run : θ_run defs (onTc (τ := τ) (main (F := Ideal))) ⟨m, fun _ => 0, ρ⟩ fun r => ∀ c : Dev nD,
      r.2.mem ((c : Thread nD τ).loc main_v39)
        = Cert.RelPos.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (K_eq_G m c), (h c).2⟩) (BlockValue.run m ρ)

end Cert.KernelIdeal.ClosedValue

end
-- ==== Proof.RefStages.lean ====
/-
  The reference program's host operations, grouped by what they compute.

  `pos` lists the positions 0 … 4095 as 32-bit words. `rowPos (i, j) = i` and `colPos (i, j) = j` spread it down
  the rows (the query) and along the columns (the key) of a 4096 × 4096 table. `rel (i, j)` is the offset `i - j`
  clipped to `[-32, 32]` and shifted by 32: the bucket of the pair. `rowIdx` and `relIdx` are those two
  coordinates after the wrap-around an indexed update applies to a negative index (add the axis's extent) — which
  never fires here, both being non-negative. `pairs (i, j, ·) = (rowIdx (i, j), relIdx (i, j))` is the index
  array; `hist` adds 1 at `pairs (i, j)` into a zero 4096 × 65 array for every `(i, j)`: the histogram of buckets
  per query row. `out` is `x + (hist · pe) · 2⁻¹²`, the product spread over the batch axis.
-/
import proofs.«137980_j20779051778070_2_alg».proof.Proof.Gen.ReferenceIdeal

noncomputable section

namespace Cert.ReferenceIdeal.Stages

open Cert.ReferenceIdeal Cert.ReferenceIdeal.Gen Idealize.ShloMosaic

/-- The positions as words. -/
def pos : IVec S4096 32 := iotaInDim S4096 32 0

/-- The query position of each pair. -/
def rowPos : IVec S4096x4096 32 :=
  broadcastInDim S4096x4096 ![0, 1] bcast_S4096x1_S4096x4096_0_1 (broadcastInDim S4096x1 ![0] bcast_S4096_S4096x1_0 pos)

/-- The key position of each pair. -/
def colPos : IVec S4096x4096 32 :=
  broadcastInDim S4096x4096 ![0, 1] bcast_S1x4096_S4096x4096_0_1 (broadcastInDim S1x4096 ![1] bcast_S4096_S1x4096_1 pos)

/-- One word at every pair. -/
def splatI (w : BitVec 32) : IVec S4096x4096 32 :=
  broadcastInDim S4096x4096 ![] bcast_S_S4096x4096 (constantI S_ 32 w)

/-- The clipped offset, shifted to `[0, 64]`. -/
def rel : IVec S4096x4096 32 :=
  addi
    (minsi (broadcastInDim S4096x4096 ![] bcast_S_S4096x4096 (id (constantI S_ 32 32#32)))
      (maxsi (broadcastInDim S4096x4096 ![] bcast_S_S4096x4096 (id (constantI S_ 32 4294967264#32))) (subi rowPos colPos)))
    (splatI 32#32)

/-- The row coordinate of the update, after the wrap of a negative index. -/
def rowIdx : IVec S4096x4096 32 :=
  select (cmpi .slt rowPos (splatI 0#32)) (addi rowPos (splatI 4096#32)) rowPos

/-- The bucket coordinate of the update, after the wrap of a negative index. -/
def relIdx : IVec S4096x4096 32 :=
  select (cmpi .slt rel (splatI 0#32)) (addi rel (splatI 65#32)) rel

/-- The index array: at `(i, j)` the pair (row, bucket). -/
def pairs : IVec S4096x4096x2 32 :=
  concatenate S4096x4096x2 2
    [⟨S4096x4096x1, broadcastInDim S4096x4096x1 ![0, 1] bcast_S4096x4096_S4096x4096x1_0_1 rowIdx⟩,
     ⟨S4096x4096x1, broadcastInDim S4096x4096x1 ![0, 1] bcast_S4096x4096_S4096x4096x1_0_1 relIdx⟩]
    concatenates_S4096x4096x1_S4096x4096x1_S4096x4096x2_d2

variable {F : FTy → Type} [FloatOps F]

/-- The histogram: one added at `pairs (i, j)` for every pair, from zero. -/
def hist : FVec F S4096x65 .f32 :=
  Host.scatterAdd scatter_S4096x65_S4096x4096x2_S4096x4096_n_01_01_2
    (broadcastInDim S4096x65 ![] bcast_S_S4096x65 (constant S_ .f32 0x00000000#32))
    pairs
    (broadcastInDim S4096x4096 ![] bcast_S_S4096x4096 (constant S_ .f32 0x3F800000#32))

/-- The result: `x` plus the scaled product of the histogram with the table, the same for every batch. -/
def out (x0 : FVec F S4x4096x1024 .f32) (x1 : FVec F S65x1024 .f32) : FVec F S4x4096x1024 .f32 :=
  addf x0
    (broadcastInDim S4x4096x1024 ![0, 1, 2] bcast_S1x4096x1024_S4x4096x1024_0_1_2
      (broadcastInDim S1x4096x1024 ![1, 2] bcast_S4096x1024_S1x4096x1024_1_2
        (mulf (Host.dotGeneral dot_S4096x65_S65x1024_S4096x1024_1_0_0_1_n_n none (hist (F := F)) x1)
          (broadcastInDim S4096x1024 ![] bcast_S_S4096x1024 (constant S_ .f32 0x39800000#32)))))

end Cert.ReferenceIdeal.Stages

end
-- ==== Proof.RefRun.lean ====
/-
  The reference program's run, read back.

  The program is a straight line of 48 host operations (the clip it calls is its six operations, in place, over
  the call's own buffers). Run from any memory, every weakly fair execution terminates; each operation writes its
  function of the buffers it reads and leaves the others, so every buffer ends at the operations' fold over the
  launch contents. The fold is read in two stretches. The first 37 operations build the two columns of the
  index array (row and bucket of every pair) and touch neither argument; the remaining 11 join the columns,
  accumulate the histogram, multiply by the table, scale and add `x`. Composed, the result buffer holds the
  staged term `Stages.out` of the two argument arrays, and the arguments end as they were.
-/
import proofs.«137980_j20779051778070_2_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Folding over two stretches one after the other is folding over their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first stretch: up to the two columns of the index array. -/
abbrev opsA : List (HloOp τ sig (Elt F)) :=
  [ nullary main_v0 (iotaInDim S4096 32 0),
    unary main_v0 main_v1 (broadcastInDim S4096x1 ![0] bcast_S4096_S4096x1_0 : (⟨S4096, .i32⟩ : BufTy).Contents (Elt F) → (⟨S4096x1, .i32⟩ : BufTy).Contents (Elt F)),
    unary main_v0 main_v2 (broadcastInDim S1x4096 ![1] bcast_S4096_S1x4096_1 : (⟨S4096, .i32⟩ : BufTy).Contents (Elt F) → (⟨S1x4096, .i32⟩ : BufTy).Contents (Elt F)),
    unary main_v1 main_v3 (broadcastInDim S4096x4096 ![0, 1] bcast_S4096x1_S4096x4096_0_1 : (⟨S4096x1, .i32⟩ : BufTy).Contents (Elt F) → (⟨S4096x4096, .i32⟩ : BufTy).Contents (Elt F)),
    unary main_v2 main_v4 (broadcastInDim S4096x4096 ![0, 1] bcast_S1x4096_S4096x4096_0_1 : (⟨S1x4096, .i32⟩ : BufTy).Contents (Elt F) → (⟨S4096x4096, .i32⟩ : BufTy).Contents (Elt F)),
    binary main_v3 main_v4 main_v5 (subi : (⟨S4096x4096, .i32⟩ : BufTy).Contents (Elt F) → (⟨S4096x4096, .i32⟩ : BufTy).Contents (Elt F) → (⟨S4096x4096, .i32⟩ : BufTy).Contents (Elt F)),
    nullary main_c (constantI S_ 32 4294967264#32),
    nullary main_c_0 (constantI S_ 32 32#32),
    TRef.unary (TRef.of (T := ⟨S_, .i32⟩) main_c) (TRef.of (T := ⟨S_, .i32⟩) main_call0_v0) id,
    TRef.unary (TRef.of (T := ⟨S_, .i32⟩) main_call0_v0) (TRef.of (T := ⟨S4096x4096, .i32⟩) main_call0_v1) (broadcastInDim S4096x4096 ![] bcast_S_S4096x4096),
    TRef.binary (TRef.of (T := ⟨S4096x4096, .i32⟩) main_call0_v1) (TRef.of (T := ⟨S4096x4096, .i32⟩) main_v5) (TRef.of (T := ⟨S4096x4096, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S4096x4096, .i32⟩) main_call0_v4) (broadcastInDim S4096x4096 ![] bcast_S_S4096x4096),
    TRef.binary (TRef.of (T := ⟨S4096x4096, .i32⟩) main_call0_v4) (TRef.of (T := ⟨S4096x4096, .i32⟩) main_call0_v2) (TRef.of (T := ⟨S4096x4096, .i32⟩) main_v6) minsi,
    nullary main_c_1 (constantI S_ 32 32#32),
    unary main_c_1 main_v7 (broadcastInDim S4096x4096 ![] bcast_S_S4096x4096 : (⟨S_, .i32⟩ : BufTy).Contents (Elt F) → (⟨S4096x4096, .i32⟩ : BufTy).Contents (Elt F)),
    binary main_v6 main_v7 main_v8 (addi : (⟨S4096x4096, .i32⟩ : BufTy).Contents (Elt F) → (⟨S4096x4096, .i32⟩ : BufTy).Contents (Elt F) → (⟨S4096x4096, .i32⟩ : BufTy).Contents (Elt F)),
    unary main_v0 main_v9 (broadcastInDim S4096x1 ![0] bcast_S4096_S4096x1_0 : (⟨S4096, .i32⟩ : BufTy).Contents (Elt F) → (⟨S4096x1, .i32⟩ : BufTy).Contents (Elt F)),
    unary main_v9 main_v10 (broadcastInDim S4096x4096 ![0, 1] bcast_S4096x1_S4096x4096_0_1 : (⟨S4096x1, .i32⟩ : BufTy).Contents (Elt F) → (⟨S4096x4096, .i32⟩ : BufTy).Contents (Elt F)),
    nullary main_cst (constant S_ .f32 0x00000000#32),
    unary main_cst main_v11 (broadcastInDim S4096x65 ![] bcast_S_S4096x65 : (⟨S_, .f32⟩ : BufTy).Contents (Elt F) → (⟨S4096x65, .f32⟩ : BufTy).Contents (Elt F)),
    nullary main_c_2 (constantI S_ 32 0#32),
    unary main_c_2 main_v12 (broadcastInDim S4096x4096 ![] bcast_S_S4096x4096 : (⟨S_, .i32⟩ : BufTy).Contents (Elt F) → (⟨S4096x4096, .i32⟩ : BufTy).Contents (Elt F)),
    binary main_v10 main_v12 main_v13 (cmpi .slt : (⟨S4096x4096, .i32⟩ : BufTy).Contents (Elt F) → (⟨S4096x4096, .i32⟩ : BufTy).Contents (Elt F) → (⟨S4096x4096, .i1⟩ : BufTy).Contents (Elt F)),
    nullary main_c_3 (constantI S_ 32 4096#32),
    unary main_c_3 main_v14 (broadcastInDim S4096x4096 ![] bcast_S_S4096x4096 : (⟨S_, .i32⟩ : BufTy).Contents (Elt F) → (⟨S4096x4096, .i32⟩ : BufTy).Contents (Elt F)),
    binary main_v10 main_v14 main_v15 (addi : (⟨S4096x4096, .i32⟩ : BufTy).Contents (Elt F) → (⟨S4096x4096, .i32⟩ : BufTy).Contents (Elt F) → (⟨S4096x4096, .i32⟩ : BufTy).Contents (Elt F)),
    ternary main_v13 main_v15 main_v10 main_v16 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    nullary main_c_4 (constantI S_ 32 0#32),
    unary main_c_4 main_v17 (broadcastInDim S4096x4096 ![] bcast_S_S4096x4096 : (⟨S_, .i32⟩ : BufTy).Contents (Elt F) → (⟨S4096x4096, .i32⟩ : BufTy).Contents (Elt F)),
    binary main_v8 main_v17 main_v18 (cmpi .slt : (⟨S4096x4096, .i32⟩ : BufTy).Contents (Elt F) → (⟨S4096x4096, .i32⟩ : BufTy).Contents (Elt F) → (⟨S4096x4096, .i1⟩ : BufTy).Contents (Elt F)),
    nullary main_c_5 (constantI S_ 32 65#32),
    unary main_c_5 main_v19 (broadcastInDim S4096x4096 ![] bcast_S_S4096x4096 : (⟨S_, .i32⟩ : BufTy).Contents (Elt F) → (⟨S4096x4096, .i32⟩ : BufTy).Contents (Elt F)),
    binary main_v8 main_v19 main_v20 (addi : (⟨S4096x4096, .i32⟩ : BufTy).Contents (Elt F) → (⟨S4096x4096, .i32⟩ : BufTy).Contents (Elt F) → (⟨S4096x4096, .i32⟩ : BufTy).Contents (Elt F)),
    ternary main_v18 main_v20 main_v8 main_v21 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v16 main_v22 (broadcastInDim S4096x4096x1 ![0, 1] bcast_S4096x4096_S4096x4096x1_0_1 : (⟨S4096x4096, .i32⟩ : BufTy).Contents (Elt F) → (⟨S4096x4096x1, .i32⟩ : BufTy).Contents (Elt F)),
    unary main_v21 main_v23 (broadcastInDim S4096x4096x1 ![0, 1] bcast_S4096x4096_S4096x4096x1_0_1 : (⟨S4096x4096, .i32⟩ : BufTy).Contents (Elt F) → (⟨S4096x4096x1, .i32⟩ : BufTy).Contents (Elt F)) ]

/-- The second stretch: the index array, the histogram, the product, the scaling and the sum with `x`. -/
abbrev opsB : List (HloOp τ sig (Elt F)) :=
  [ binary main_v22 main_v23 main_v24 ((fun a b => concatenate S4096x4096x2 2 [⟨S4096x4096x1, a⟩, ⟨S4096x4096x1, b⟩] concatenates_S4096x4096x1_S4096x4096x1_S4096x4096x2_d2) : (⟨S4096x4096x1, .i32⟩ : BufTy).Contents (Elt F) → (⟨S4096x4096x1, .i32⟩ : BufTy).Contents (Elt F) → (⟨S4096x4096x2, .i32⟩ : BufTy).Contents (Elt F)),
    nullary main_cst_6 (constant S_ .f32 0x3F800000#32),
    unary main_cst_6 main_v25 (broadcastInDim S4096x4096 ![] bcast_S_S4096x4096 : (⟨S_, .f32⟩ : BufTy).Contents (Elt F) → (⟨S4096x4096, .f32⟩ : BufTy).Contents (Elt F)),
    ternary main_v11 main_v24 main_v25 main_v26 ((fun x i u => Host.scatterAdd scatter_S4096x65_S4096x4096x2_S4096x4096_n_01_01_2 x i u) : (⟨S4096x65, .f32⟩ : BufTy).Contents (Elt F) → (⟨S4096x4096x2, .i32⟩ : BufTy).Contents (Elt F) → (⟨S4096x4096, .f32⟩ : BufTy).Contents (Elt F) → (⟨S4096x65, .f32⟩ : BufTy).Contents (Elt F)),
    binary main_v26 main_arg1 main_v27 ((fun l r => Host.dotGeneral dot_S4096x65_S65x1024_S4096x1024_1_0_0_1_n_n none l r) : (⟨S4096x65, .f32⟩ : BufTy).Contents (Elt F) → (⟨S65x1024, .f32⟩ : BufTy).Contents (Elt F) → (⟨S4096x1024, .f32⟩ : BufTy).Contents (Elt F)),
    nullary main_cst_7 (constant S_ .f32 0x39800000#32),
    unary main_cst_7 main_v28 (broadcastInDim S4096x1024 ![] bcast_S_S4096x1024 : (⟨S_, .f32⟩ : BufTy).Contents (Elt F) → (⟨S4096x1024, .f32⟩ : BufTy).Contents (Elt F)),
    binary main_v27 main_v28 main_v29 (mulf : (⟨S4096x1024, .f32⟩ : BufTy).Contents (Elt F) → (⟨S4096x1024, .f32⟩ : BufTy).Contents (Elt F) → (⟨S4096x1024, .f32⟩ : BufTy).Contents (Elt F)),
    unary main_v29 main_v30 (broadcastInDim S1x4096x1024 ![1, 2] bcast_S4096x1024_S1x4096x1024_1_2 : (⟨S4096x1024, .f32⟩ : BufTy).Contents (Elt F) → (⟨S1x4096x1024, .f32⟩ : BufTy).Contents (Elt F)),
    unary main_v30 main_v31 (broadcastInDim S4x4096x1024 ![0, 1, 2] bcast_S1x4096x1024_S4x4096x1024_0_1_2 : (⟨S1x4096x1024, .f32⟩ : BufTy).Contents (Elt F) → (⟨S4x4096x1024, .f32⟩ : BufTy).Contents (Elt F)),
    binary main_arg0 main_v31 main_v32 (addf : (⟨S4x4096x1024, .f32⟩ : BufTy).Contents (Elt F) → (⟨S4x4096x1024, .f32⟩ : BufTy).Contents (Elt F) → (⟨S4x4096x1024, .f32⟩ : BufTy).Contents (Elt F)) ]

/-- The program's operations, in order. -/
abbrev ops : List (HloOp τ sig (Elt F)) := opsA ++ opsB

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., nullary_bufs_sub .., unary_bufs_sub .., binary_bufs_sub .., unary_bufs_sub .., unary_bufs_sub .., binary_bufs_sub ..⟩

/-- After the first stretch the row column of the index array holds the row coordinate of every pair, … -/
theorem rowColumn (V : Valuation τ sig (Elt F)) :
    after opsA V (Proc.devRef .tc main_v22)
      = broadcastInDim S4096x4096x1 ![0, 1] bcast_S4096x4096_S4096x4096x1_0_1 Stages.rowIdx := by
  after_results_simp
  rfl

/-- … the bucket column its bucket, … -/
theorem relColumn (V : Valuation τ sig (Elt F)) :
    after opsA V (Proc.devRef .tc main_v23)
      = broadcastInDim S4096x4096x1 ![0, 1] bcast_S4096x4096_S4096x4096x1_0_1 Stages.relIdx := by
  after_results_simp
  rfl

/-- … the array the histogram starts from is zero everywhere, … -/
theorem zeroArray (V : Valuation τ sig (Elt F)) :
    after opsA V (Proc.devRef .tc main_v11)
      = broadcastInDim S4096x65 ![] bcast_S_S4096x65 (constant (F := F) S_ .f32 0x00000000#32) := by
  after_results_simp <;> rfl

/-- … and the two arguments are untouched. -/
theorem keptA0 (V : Valuation τ sig (Elt F)) : after opsA V (Proc.devRef .tc main_arg0) = V (Proc.devRef .tc main_arg0) := by
  after_results_simp <;> rfl
theorem keptA1 (V : Valuation τ sig (Elt F)) : after opsA V (Proc.devRef .tc main_arg1) = V (Proc.devRef .tc main_arg1) := by
  after_results_simp <;> rfl

/-- The second stretch from any contents `W` whose two index columns are `a` and `b`, whose starting array is `z`
    and whose arguments are `x0` and `x1`: the result buffer ends at the histogram of the joined columns (from
    `z`) times `x1`, scaled, plus `x0`. -/
theorem secondStretch (W : Valuation τ sig (Elt F))
    (a b : IVec S4096x4096x1 32) (z : FVec F S4096x65 .f32) (x0 : FVec F S4x4096x1024 .f32) (x1 : FVec F S65x1024 .f32)
    (ha : W (Proc.devRef .tc main_v22) = a) (hb : W (Proc.devRef .tc main_v23) = b) (hz : W (Proc.devRef .tc main_v11) = z)
    (h0 : W (Proc.devRef .tc main_arg0) = x0) (h1 : W (Proc.devRef .tc main_arg1) = x1) :
    after opsB W (Proc.devRef .tc main_v32)
      = addf x0
          (broadcastInDim S4x4096x1024 ![0, 1, 2] bcast_S1x4096x1024_S4x4096x1024_0_1_2
            (broadcastInDim S1x4096x1024 ![1, 2] bcast_S4096x1024_S1x4096x1024_1_2
              (mulf
                (Host.dotGeneral dot_S4096x65_S65x1024_S4096x1024_1_0_0_1_n_n none
                  (Host.scatterAdd scatter_S4096x65_S4096x4096x2_S4096x4096_n_01_01_2
                    z
                    (concatenate S4096x4096x2 2 [⟨S4096x4096x1, a⟩, ⟨S4096x4096x1, b⟩]
                      concatenates_S4096x4096x1_S4096x4096x1_S4096x4096x2_d2)
                    (broadcastInDim S4096x4096 ![] bcast_S_S4096x4096 (constant S_ .f32 0x3F800000#32)))
                  x1)
                (broadcastInDim S4096x1024 ![] bcast_S_S4096x1024 (constant S_ .f32 0x39800000#32))))) := by
  subst ha hb hz h0 h1
  after_results_simp <;> rfl

/-- The second stretch writes neither argument. -/
theorem keptB0 (W : Valuation τ sig (Elt F)) : after opsB W (Proc.devRef .tc main_arg0) = W (Proc.devRef .tc main_arg0) := by
  after_results_simp <;> rfl
theorem keptB1 (W : Valuation τ sig (Elt F)) : after opsB W (Proc.devRef .tc main_arg1) = W (Proc.devRef .tc main_arg1) := by
  after_results_simp <;> rfl

/-- Every weakly fair execution of the program terminates with the result at `Stages.out` of the argument arrays
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
        = Stages.out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (by
        rw [after_append]
        exact (secondStretch _ _ _ _ _ _ (rowColumn _) (relColumn _) (zeroArray _) (keptA0 _) (keptA1 _)).trans rfl),
      (h c main_arg0).trans (by rw [after_append, keptB0, keptA0]),
      (h c main_arg1).trans (by rw [after_append, keptB1, keptA1])⟩)
    (run_seq scopedRefs_eq scopedSems_eq defs main (fun _ => ops) main_eq (fun _ => ops_sub) m ρ)

end Cert.ReferenceIdeal.HandRun

end
-- ==== Proof.RefValue.lean ====
/-
  The reference program's result, at the ideal instance, is the shared function G of its two arguments.

  The reference builds, for every pair (query a, key b) of positions below 4096, the two-component index
  (a, bucket of the pair), where the bucket is the offset a - b clipped to [-32, 32] and shifted to [0, 64];
  scatters a one into an all-zero 4096 x 65 array at each such index, so that entry (l, k) ends as the number
  of keys b whose pair (l, b) falls in bucket k; multiplies that histogram into the embedding table, scales by
  the word 0x39800000 and adds the result to x, the same for every batch entry.

  Three steps. (1) The index array, read at an index: positions below 4096 are non-negative 32-bit words, their
  difference has magnitude below 4096, the clip leaves a value in [-32, 32] and the shift one in [0, 64], so
  no word operation wraps and neither "add the extent if negative" selection fires. (2) The scatter, read at
  an index: with both operand axes inserted, the update at (a, b) lands on (l, k) exactly when the index array
  holds l at (a, b, 0) and k at (a, b, 1); every update is one and the operand is zero, so entry (l, k) is
  the number of pairs (a, b) with a = l and bucket k, which is the number of keys b in bucket k of query l.
  (3) The chain of elementwise and layout operations from the histogram to the result.
-/
import proofs.«137980_j20779051778070_2_alg».proof.Proof.RefStages
import proofs.«137980_j20779051778070_2_alg».proof.Proof.Spec
import Idealize.ShloMosaic.PureOps.Float
import Idealize.ShloMosaic.PureOps.Dims
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.Stages Idealize.ShloMosaic
  Idealize.ShloMosaic.ValueIdx

/-! ## Word arithmetic on positions below 4096 -/

/-- An integer of small magnitude is its own balanced remainder modulo 2 ^ 32. -/
theorem bmod_small (x : ℤ) (h1 : -8192 ≤ x) (h2 : x ≤ 8192) : x.bmod (2 ^ 32) = x :=
  Int.bmod_eq_of_le_mul_two (by omega) (by omega)

/-- A position below 4096, as a 32-bit word, reads back signed as itself. -/
theorem toInt_ofNat_pos (a : ℕ) (ha : a < 4096) : (BitVec.ofNat 32 a).toInt = (a : ℤ) := by
  rw [BitVec.toInt_ofNat', bmod_small _ (by omega) (by omega)]

/-- A word that is not negative passes the "add the extent if negative" selection unchanged. -/
theorem select_neg_of_nonneg (x y : BitVec 32) (hx : 0 ≤ x.toInt) :
    Scalar.select (IntOp.cmpi .slt x 0#32) y x = x := by
  have h : x.slt 0#32 = false := by
    simp only [BitVec.slt, BitVec.toInt_zero, decide_eq_false_iff_not, not_lt]
    exact hx
  simp only [Scalar.select, IntOp.cmpi, h]
  rfl

/-- The bucket of the pair (a, b) as the reference computes it on 32-bit words: subtract, clip below at -32
    (the word 4294967264), clip above at 32, add 32. -/
def bucketWord (a b : ℕ) : BitVec 32 :=
  IntOp.addi (IntOp.minsi 32#32 (IntOp.maxsi 4294967264#32
    (IntOp.subi (BitVec.ofNat 32 a) (BitVec.ofNat 32 b)))) 32#32

/-- For positions below 4096 the word computation is the integer one: the difference lies strictly between
    -4096 and 4096, the clip keeps it in [-32, 32], and the shift in [0, 64], so no step wraps. -/
theorem toInt_bucketWord (a b : ℕ) (ha : a < 4096) (hb : b < 4096) :
    (bucketWord a b).toInt = Cert.RelPos.bucket a b := by
  unfold bucketWord Cert.RelPos.bucket
  have hA := toInt_ofNat_pos a ha
  have hB := toInt_ofNat_pos b hb
  have hd : (IntOp.subi (BitVec.ofNat 32 a) (BitVec.ofNat 32 b)).toInt = (a : ℤ) - (b : ℤ) := by
    unfold IntOp.subi
    rw [BitVec.toInt_sub, hA, hB, bmod_small _ (by omega) (by omega)]
  generalize IntOp.subi (BitVec.ofNat 32 a) (BitVec.ofNat 32 b) = d at hd
  have hm : (IntOp.maxsi 4294967264#32 d).toInt = max (-32) ((a : ℤ) - (b : ℤ)) := by
    unfold IntOp.maxsi
    have e : (4294967264#32 : BitVec 32).toInt = -32 := by decide
    by_cases h : d.slt 4294967264#32
    · rw [if_pos h, e]
      simp only [BitVec.slt, decide_eq_true_eq, e, hd] at h
      omega
    · rw [if_neg h, hd]
      simp only [BitVec.slt, decide_eq_true_eq, e, hd, not_lt] at h
      omega
  generalize IntOp.maxsi 4294967264#32 d = m at hm
  have hn : (IntOp.minsi 32#32 m).toInt = min 32 (max (-32) ((a : ℤ) - (b : ℤ))) := by
    unfold IntOp.minsi
    have e : (32#32 : BitVec 32).toInt = 32 := by decide
    by_cases h : (32#32 : BitVec 32).slt m
    · rw [if_pos h, e]
      simp only [BitVec.slt, decide_eq_true_eq, e, hm] at h
      omega
    · rw [if_neg h, hm]
      simp only [BitVec.slt, decide_eq_true_eq, e, hm, not_lt] at h
      omega
  generalize IntOp.minsi 32#32 m = n at hn
  unfold IntOp.addi
  have e : (32#32 : BitVec 32).toInt = 32 := by decide
  rw [BitVec.toInt_add, hn, e, bmod_small _ (by omega) (by omega)]

/-- The bucket word of two positions below 4096 is not negative. -/
theorem bucketWord_nonneg (a b : ℕ) (ha : a < 4096) (hb : b < 4096) : 0 ≤ (bucketWord a b).toInt := by
  rw [toInt_bucketWord a b ha hb]
  unfold Cert.RelPos.bucket
  omega

/-! ## Layout operations at an index -/

/-- A vector of length 4096 spread down the rows of the square reads, at (a, b), its entry a. -/
theorem rowSpread_at {α : Type} (p : S4096.Idx → α) (a b : Fin 4096) :
    broadcastInDim S4096x4096 ![0, 1] bcast_S4096x1_S4096x4096_0_1
      (broadcastInDim S4096x1 ![0] bcast_S4096_S4096x1_0 p) (ix2 a b) = p (ix1 a) := by
  refine (broadcastInDim_apply _ _ _ (ix2 a b) (ix2 a (0 : Fin 1)) (fun x => ?_)).trans
    (broadcastInDim_apply _ _ p (ix2 a (0 : Fin 1)) (ix1 a) (fun x => ?_))
  · match x with
    | ⟨0, _⟩ => exact show a.val = if (4096 : ℕ) = 1 then 0 else a.val from (if_neg (by decide)).symm
    | ⟨1, _⟩ => exact show 0 = if (1 : ℕ) = 1 then 0 else b.val from (if_pos rfl).symm
  · match x with
    | ⟨0, _⟩ => exact show a.val = if (4096 : ℕ) = 1 then 0 else a.val from (if_neg (by decide)).symm

/-- A vector of length 4096 spread along the columns of the square reads, at (a, b), its entry b. -/
theorem colSpread_at {α : Type} (p : S4096.Idx → α) (a b : Fin 4096) :
    broadcastInDim S4096x4096 ![0, 1] bcast_S1x4096_S4096x4096_0_1
      (broadcastInDim S1x4096 ![1] bcast_S4096_S1x4096_1 p) (ix2 a b) = p (ix1 b) := by
  refine (broadcastInDim_apply _ _ _ (ix2 a b) (ix2 (0 : Fin 1) b) (fun x => ?_)).trans
    (broadcastInDim_apply _ _ p (ix2 (0 : Fin 1) b) (ix1 b) (fun x => ?_))
  · match x with
    | ⟨0, _⟩ => exact show 0 = if (1 : ℕ) = 1 then 0 else a.val from (if_pos rfl).symm
    | ⟨1, _⟩ => exact show b.val = if (4096 : ℕ) = 1 then 0 else b.val from (if_neg (by decide)).symm
  · match x with
    | ⟨0, _⟩ => exact show b.val = if (4096 : ℕ) = 1 then 0 else b.val from (if_neg (by decide)).symm

/-- A square array given a trailing unit axis reads, at (a, b, 0), its entry (a, b). -/
theorem lift_at {α : Type} (y : S4096x4096.Idx → α) (a b : Fin 4096) :
    broadcastInDim S4096x4096x1 ![0, 1] bcast_S4096x4096_S4096x4096x1_0_1 y (ix3 a b (0 : Fin 1)) = y (ix2 a b) :=
  broadcastInDim_apply _ _ y (ix3 a b (0 : Fin 1)) (ix2 a b) (fun x => by
    match x with
    | ⟨0, _⟩ => exact show a.val = if (4096 : ℕ) = 1 then 0 else a.val from (if_neg (by decide)).symm
    | ⟨1, _⟩ => exact show b.val = if (4096 : ℕ) = 1 then 0 else b.val from (if_neg (by decide)).symm)

/-- A 4096 x 1024 array given a leading unit axis and then spread over the four batch entries reads, at
    (b, l, d), its entry (l, d). -/
theorem batchSpread_at {α : Type} (y : S4096x1024.Idx → α) (b : Fin 4) (l : Fin 4096) (d : Fin 1024) :
    broadcastInDim S4x4096x1024 ![0, 1, 2] bcast_S1x4096x1024_S4x4096x1024_0_1_2
      (broadcastInDim S1x4096x1024 ![1, 2] bcast_S4096x1024_S1x4096x1024_1_2 y) (ix3 b l d) = y (ix2 l d) := by
  refine (broadcastInDim_apply _ _ _ (ix3 b l d) (ix3 (0 : Fin 1) l d) (fun x => ?_)).trans
    (broadcastInDim_apply _ _ y (ix3 (0 : Fin 1) l d) (ix2 l d) (fun x => ?_))
  · match x with
    | ⟨0, _⟩ => exact show 0 = if (1 : ℕ) = 1 then 0 else b.val from (if_pos rfl).symm
    | ⟨1, _⟩ => exact show l.val = if (4096 : ℕ) = 1 then 0 else l.val from (if_neg (by decide)).symm
    | ⟨2, _⟩ => exact show d.val = if (1024 : ℕ) = 1 then 0 else d.val from (if_neg (by decide)).symm
  · match x with
    | ⟨0, _⟩ => exact show l.val = if (4096 : ℕ) = 1 then 0 else l.val from (if_neg (by decide)).symm
    | ⟨1, _⟩ => exact show d.val = if (1024 : ℕ) = 1 then 0 else d.val from (if_neg (by decide)).symm

/-! ## The index array at an index -/

/-- The query position at (a, b) is the word of a. -/
theorem rowPos_at (a b : Fin 4096) : rowPos (ix2 a b) = BitVec.ofNat 32 a.val :=
  rowSpread_at pos a b

/-- The key position at (a, b) is the word of b. -/
theorem colPos_at (a b : Fin 4096) : colPos (ix2 a b) = BitVec.ofNat 32 b.val :=
  colSpread_at pos a b

/-- A splatted word reads that word everywhere. -/
theorem splatI_at (w : BitVec 32) (i : S4096x4096.Idx) : splatI w i = w :=
  broadcastInDim_scalar_apply _ _ i

/-- The clipped, shifted offset at (a, b) is the bucket word of the pair. -/
theorem rel_at (a b : Fin 4096) : rel (ix2 a b) = bucketWord a.val b.val := by
  have h1 : broadcastInDim S4096x4096 ![] bcast_S_S4096x4096 (id (constantI S_ 32 32#32)) (ix2 a b) = 32#32 :=
    broadcastInDim_scalar_apply _ _ _
  have h2 : broadcastInDim S4096x4096 ![] bcast_S_S4096x4096 (id (constantI S_ 32 4294967264#32)) (ix2 a b)
      = 4294967264#32 := broadcastInDim_scalar_apply _ _ _
  show IntOp.addi (IntOp.minsi
      (broadcastInDim S4096x4096 ![] bcast_S_S4096x4096 (id (constantI S_ 32 32#32)) (ix2 a b))
      (IntOp.maxsi (broadcastInDim S4096x4096 ![] bcast_S_S4096x4096 (id (constantI S_ 32 4294967264#32)) (ix2 a b))
        (IntOp.subi (rowPos (ix2 a b)) (colPos (ix2 a b))))) (splatI 32#32 (ix2 a b)) = _
  rw [h1, h2, splatI_at, rowPos_at, colPos_at]
  rfl

/-- The first index component at (a, b) is the word of a: it is not negative, so it is kept as it is. -/
theorem rowIdx_at (a b : Fin 4096) : rowIdx (ix2 a b) = BitVec.ofNat 32 a.val := by
  show Scalar.select (IntOp.cmpi .slt (rowPos (ix2 a b)) (splatI 0#32 (ix2 a b)))
    (IntOp.addi (rowPos (ix2 a b)) (splatI 4096#32 (ix2 a b))) (rowPos (ix2 a b)) = _
  rw [splatI_at 0#32, rowPos_at]
  exact select_neg_of_nonneg _ _ (by rw [toInt_ofNat_pos _ a.isLt]; omega)

/-- The second index component at (a, b) is the bucket word of the pair: it is not negative, so it is kept as
    it is. -/
theorem relIdx_at (a b : Fin 4096) : relIdx (ix2 a b) = bucketWord a.val b.val := by
  show Scalar.select (IntOp.cmpi .slt (rel (ix2 a b)) (splatI 0#32 (ix2 a b)))
    (IntOp.addi (rel (ix2 a b)) (splatI 65#32 (ix2 a b))) (rel (ix2 a b)) = _
  rw [splatI_at 0#32, rel_at]
  exact select_neg_of_nonneg _ _ (bucketWord_nonneg _ _ a.isLt b.isLt)

/-- The index array at (a, b, 0) holds the word of a. -/
theorem pairs_at0 (a b : Fin 4096) : pairs (ix3 a b (0 : Fin 2)) = BitVec.ofNat 32 a.val := by
  unfold pairs
  refine (concatenate_pair_apply_left (s₁ := S4096x4096x1) (s₂ := S4096x4096x1)
    (2 : Fin S4096x4096x2.rank) _ _ _ (ix3 a b (0 : Fin 2)) rfl
    (ix3 a b (0 : Fin 1)) (fun x => match x with | ⟨0, _⟩ => rfl | ⟨1, _⟩ => rfl | ⟨2, _⟩ => rfl)).trans ?_
  rw [lift_at, rowIdx_at]

/-- The index array at (a, b, 1) holds the bucket word of the pair. -/
theorem pairs_at1 (a b : Fin 4096) : pairs (ix3 a b (1 : Fin 2)) = bucketWord a.val b.val := by
  unfold pairs
  refine (concatenate_pair_apply_right (s₁ := S4096x4096x1) (s₂ := S4096x4096x1)
    (2 : Fin S4096x4096x2.rank) _ _ _ (ix3 a b (1 : Fin 2)) rfl rfl
    (ix3 a b (0 : Fin 1))
    (fun x hx => match x, hx with
      | ⟨0, _⟩, _ => rfl
      | ⟨1, _⟩, _ => rfl
      | ⟨2, _⟩, h => absurd rfl h) rfl).trans ?_
  rw [lift_at, relIdx_at]

/-! ## Where an update of the scatter lands -/

/-- An update lands on the operand element i exactly when, on every operand axis, its start plus its window
    coordinate is the coordinate of i. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      intro a
      have e := congrArg Fin.val (congrFun (Option.some.inj h) a)
      have := hc a
      simp only at e
      omega
    · exact absurd h (by simp)
  · intro h
    have hc : ∀ a, 0 ≤ d.start j idx a + (d.window j a : ℤ) ∧ d.start j idx a + (d.window j a : ℤ) < s.size a :=
      fun a => by have := h a; have := (i a).isLt; omega
    rw [dif_pos hc]
    congr 1
    funext a
    apply Fin.ext
    have := h a
    simp only
    omega

/-- The dimension numbers of the histogram scatter. -/
abbrev sc : ScatterDims S4096x65 S4096x4096x2 S4096x4096 := scatter_S4096x65_S4096x4096x2_S4096x4096_n_01_01_2

/-- Both operand axes are inserted window axes: the window coordinate of an update is zero on each. -/
theorem sc_window (j : S4096x4096.Idx) (a : Fin S4096x65.rank) : sc.window j a = 0 := by
  have hk : sc.sKept = [] := by decide
  unfold ScatterDims.window
  rw [dif_neg (by rw [hk]; exact List.not_mem_nil)]

/-- The update at (a, b) reads component 0 of its start index at (a, b, 0) of the index array. -/
theorem sc_start0 (idx : IVec S4096x4096x2 32) (a b : Fin 4096) :
    sc.start (ix2 a b) idx 0 = (idx (ix3 a b 0)).toInt := by
  unfold ScatterDims.start
  rw [dif_pos (by decide)]
  refine congrArg (fun q => (idx q).toInt) ?_
  funext x
  apply Fin.ext
  match x with
  | ⟨0, _⟩ => rfl
  | ⟨1, _⟩ => rfl
  | ⟨2, _⟩ => rfl

/-- The update at (a, b) reads component 1 of its start index at (a, b, 1) of the index array. -/
theorem sc_start1 (idx : IVec S4096x4096x2 32) (a b : Fin 4096) :
    sc.start (ix2 a b) idx 1 = (idx (ix3 a b 1)).toInt := by
  unfold ScatterDims.start
  rw [dif_pos (by decide)]
  refine congrArg (fun q => (idx q).toInt) ?_
  funext x
  apply Fin.ext
  match x with
  | ⟨0, _⟩ => rfl
  | ⟨1, _⟩ => rfl
  | ⟨2, _⟩ => rfl

/-- The update at (a, b) lands on row l, column k of the histogram exactly when the index array holds l at
    (a, b, 0) and k at (a, b, 1), read as signed words. -/
theorem sc_resultIdx?_iff (idx : IVec S4096x4096x2 32) (a b l : Fin 4096) (k : Fin 65) :
    sc.resultIdx? (ix2 a b) idx = some (ix2 l k) ↔
      (idx (ix3 a b 0)).toInt = (l.val : ℤ) ∧ (idx (ix3 a b 1)).toInt = (k.val : ℤ) := by
  rw [resultIdx?_eq_some_iff]
  constructor
  · intro h
    have h0 := h 0
    have h1 := h 1
    rw [sc_window, sc_start0] at h0
    rw [sc_window, sc_start1] at h1
    exact ⟨by simpa using h0, by simpa using h1⟩
  · rintro ⟨h0, h1⟩ x
    match x with
    | ⟨0, _⟩ =>
      show sc.start (ix2 a b) idx 0 + ((sc.window (ix2 a b) 0 : ℕ) : ℤ) = (l.val : ℤ)
      rw [sc_window, sc_start0, h0]; simp
    | ⟨1, _⟩ =>
      show sc.start (ix2 a b) idx 1 + ((sc.window (ix2 a b) 1 : ℕ) : ℤ) = (k.val : ℤ)
      rw [sc_window, sc_start1, h1]; simp

/-! ## The histogram at an index -/

/-- With the reference's index array, the update at (a, b) lands on (l, k) exactly when a is l and the pair
    (a, b) falls in bucket k. -/
theorem landing_iff (a b l : Fin 4096) (k : Fin 65) :
    sc.resultIdx? (ix2 a b) pairs = some (ix2 l k) ↔
      a = l ∧ Cert.RelPos.bucket a.val b.val = (k.val : ℤ) := by
  refine (sc_resultIdx?_iff pairs a b l k).trans ?_
  rw [pairs_at0, pairs_at1, toInt_ofNat_pos _ a.isLt, toInt_bucketWord _ _ a.isLt b.isLt]
  constructor
  · rintro ⟨h0, h1⟩
    exact ⟨Fin.ext (by omega), h1⟩
  · rintro ⟨rfl, h1⟩
    exact ⟨rfl, h1⟩

/-- The updates landing on (l, k) are as many as the keys in bucket k of query l: such an update is (l, b) with
    b a key of that bucket, and b determines it. -/
theorem card_landing (l : Fin 4096) (k : Fin 65) :
    (Finset.univ.filter (fun j : S4096x4096.Idx =>
      sc.resultIdx? j pairs = some (ix2 l k))).card = Cert.RelPos.bucketCount l.val k.val := by
  unfold Cert.RelPos.bucketCount
  refine Finset.card_bij (fun j _ => (j 1).val) ?_ ?_ ?_
  · intro j hj
    obtain ⟨a, b, rfl⟩ : ∃ a b, j = ix2 a b := ⟨j 0, j 1, eq_ix2 j⟩
    have m := (landing_iff a b l k).1 (Finset.mem_filter.1 hj).2
    rw [Finset.mem_filter, Finset.mem_range]
    refine ⟨b.isLt, ?_⟩
    rw [← m.1]
    exact m.2
  · intro j₁ h₁ j₂ h₂ e
    obtain ⟨a₁, b₁, rfl⟩ : ∃ a b, j₁ = ix2 a b := ⟨j₁ 0, j₁ 1, eq_ix2 j₁⟩
    obtain ⟨a₂, b₂, rfl⟩ : ∃ a b, j₂ = ix2 a b := ⟨j₂ 0, j₂ 1, eq_ix2 j₂⟩
    have m₁ := (landing_iff a₁ b₁ l k).1 (Finset.mem_filter.1 h₁).2
    have m₂ := (landing_iff a₂ b₂ l k).1 (Finset.mem_filter.1 h₂).2
    have ea : a₁ = a₂ := m₁.1.trans m₂.1.symm
    have eb : b₁ = b₂ := Fin.ext e
    rw [ea, eb]
  · intro n hn
    rw [Finset.mem_filter, Finset.mem_range] at hn
    refine ⟨ix2 l ⟨n, hn.1⟩, ?_, rfl⟩
    rw [Finset.mem_filter]
    exact ⟨Finset.mem_univ _, (landing_iff l ⟨n, hn.1⟩ l k).2 ⟨rfl, hn.2⟩⟩

/-- The histogram at (l, k) is the count of keys in bucket k of query l, in closed form: the operand is zero
    there, each landing update adds one, and the landing updates are counted above. -/
theorem hist_at (l : Fin 4096) (k : Fin 65) :
    hist (F := Ideal) (ix2 l k) = Cert.RelPos.cnt l.val k.val := by
  have h0 : broadcastInDim S4096x65 ![] bcast_S_S4096x65
      (constant S_ .f32 0x00000000#32 : FVec Ideal S_ .f32) (ix2 l k) = 0 := by
    rw [broadcastInDim_scalar_apply]
    exact Ideal.ofBits_zero_f32
  have h1 : ∀ j, broadcastInDim S4096x4096 ![] bcast_S_S4096x4096
      (constant S_ .f32 0x3F800000#32 : FVec Ideal S_ .f32) j = 1 := fun j => by
    rw [broadcastInDim_scalar_apply]
    exact Ideal.ofBits_one_f32
  show Ideal.hostScatterAdd sc
    (broadcastInDim S4096x65 ![] bcast_S_S4096x65 (constant S_ .f32 0x00000000#32 : FVec Ideal S_ .f32)) pairs
    (broadcastInDim S4096x4096 ![] bcast_S_S4096x4096 (constant S_ .f32 0x3F800000#32 : FVec Ideal S_ .f32))
    (ix2 l k) = _
  unfold Ideal.hostScatterAdd
  rw [h0, zero_add, Finset.sum_congr rfl (fun j _ => h1 j), Finset.sum_const, nsmul_one, card_landing,
    Cert.RelPos.bucketCount_eq_closedCount _ _ l.isLt k.isLt]
  rfl

/-! ## The product with the table at an index -/

/-- The dimension numbers of the product: the histogram's bucket axis against the table's. -/
abbrev dd : DotDims S4096x65 S65x1024 S4096x1024 := dot_S4096x65_S65x1024_S4096x1024_1_0_0_1_n_n

/-- The left operand is read at the row of the result index. -/
theorem dd_lhs0 (i : S4096x1024.Idx) (q : dd.contr.Idx) : (dd.lhsIdx i q 0).val = (i 0).val := by
  unfold DotDims.lhsIdx
  rw [dif_neg (show ¬(0 : Fin S4096x65.rank) ∈ dd.lhsBatch by decide),
    dif_pos (show (0 : Fin S4096x65.rank) ∈ dd.lhsNonContracting by decide)]
  rfl

/-- The left operand is read at the contracted coordinate on its bucket axis. -/
theorem dd_lhs1 (i : S4096x1024.Idx) (q : dd.contr.Idx) : (dd.lhsIdx i q 1).val = (q ⟨0, by decide⟩).val :=
  dd.lhsIdx_val_of_single rfl i q

/-- The table is read at the contracted coordinate on its bucket axis. -/
theorem dd_rhs0 (i : S4096x1024.Idx) (q : dd.contr.Idx) : (dd.rhsIdx i q 0).val = (q ⟨0, by decide⟩).val :=
  dd.rhsIdx_val_of_single rfl i q

/-- The table is read at the column of the result index. -/
theorem dd_rhs1 (i : S4096x1024.Idx) (q : dd.contr.Idx) : (dd.rhsIdx i q 1).val = (i 1).val := by
  unfold DotDims.rhsIdx
  rw [dif_neg (show ¬(1 : Fin S65x1024.rank) ∈ dd.rhsBatch by decide),
    dif_pos (show (1 : Fin S65x1024.rank) ∈ dd.rhsNonContracting by decide)]
  rfl

/-- The product at (l, d) is the sum over the 65 buckets k of the left operand at (l, k) times the table at
    (k, d). -/
theorem dot_at (h : FVec Ideal S4096x65 .f32) (x1 : FVec Ideal S65x1024 .f32) (l : Fin 4096) (d : Fin 1024) :
    Host.dotGeneral dd none h x1 (ix2 l d) = ∑ k : Fin 65, h (ix2 l k) * x1 (ix2 k d) := by
  simp only [Host.dotGeneral]
  rw [Ideal.dotGeneral_apply, ← Equiv.sum_comp (contrEquiv1 dd 65 rfl rfl).symm]
  refine Finset.sum_congr rfl fun k _ => ?_
  have hk := contrEquiv1_symm_val dd 65 rfl rfl k
  have el : dd.lhsIdx (ix2 l d) ((contrEquiv1 dd 65 rfl rfl).symm k) = ix2 l k := funext fun a => Fin.ext (by
    match a with
    | ⟨0, _⟩ => exact dd_lhs0 _ _
    | ⟨1, _⟩ => exact (dd_lhs1 _ _).trans hk)
  have er : dd.rhsIdx (ix2 l d) ((contrEquiv1 dd 65 rfl rfl).symm k) = ix2 k d := funext fun a => Fin.ext (by
    match a with
    | ⟨0, _⟩ => exact (dd_rhs0 _ _).trans hk
    | ⟨1, _⟩ => exact dd_rhs1 _ _)
  rw [el, er]

/-! ## The result -/

/-- The reference's result is G of its two arguments. -/
theorem ref_eq_G (x0 : S4x4096x1024.Idx → EReal) (x1 : S65x1024.Idx → EReal) :
    Cert.ReferenceIdeal.Stages.out (F := Ideal) x0 x1 = Cert.RelPos.G x0 x1 := by
  funext i
  obtain ⟨b, l, d, rfl⟩ : ∃ b l d, i = ix3 b l d := ⟨i 0, i 1, i 2, eq_ix3 i⟩
  rw [Cert.RelPos.G_apply]
  unfold Cert.RelPos.entry Stages.out
  rw [addf_apply, batchSpread_at, mulf_apply, dot_at, broadcastInDim_scalar_apply,
    Finset.sum_congr rfl (fun k _ => by rw [hist_at l k])]
  rfl

end Cert.ReferenceIdeal.RefValue

end
-- ==== Proof.lean ====
/-
  A fused relative-position embedding: kernel against reference, equal as extended reals.

  For `x : [4, 4096, 1024]` and a table `pe : [65, 1024]` both programs return
  `x (b, l, d) + (Σ_{k < 65} count (l, k) · pe (k, d)) · 2⁻¹²`, where `count (l, k)` is the number of key positions
  `j < 4096` whose offset `l - j`, clipped to `[-32, 32]` and shifted by 32, equals `k`: the mean over all keys of the
  embedding of the clipped relative position, added to `x`.

  The reference counts by brute force: it writes the pair (row, bucket) for each of the 4096² pairs into an index
  array and adds one into a zero 4096 × 65 array at each. The kernel's host code writes the same histogram in closed
  form (bucket 0 holds the `4096 - l - 32` keys far to the right, bucket 64 the `l + 1 - 32` keys far to the left, a
  bucket between holds the one key `l + 32 - k` when that is a position), pads histogram and table with zeros to 128
  so that the product is lane-dense, and its one region computes `x + (histogram · table) · 2⁻¹²` slab by slab over a
  4 × 2 grid. The two sides meet in one function `G` of the arguments (Proof/Spec.lean): the counting identity is
  Proof/Count.lean; the reference's run and its reading are Proof/RefStages.lean, RefRun.lean and RefValue.lean; the
  kernel's host arrays, body, slabs and closed form are Proof/KernelHost.lean, KernelBody.lean, KernelBlocks.lean and
  KernelClosed.lean. Sums of extended reals are reordered and zero terms dropped, nothing is distributed or
  cancelled, so the inputs' finiteness is never used. The scale `2⁻¹²` is the same word on both sides and is never
  evaluated. No operation of the kernel is rewritten in its idealization — it is the kernel's own text read over the extended
  reals — so that conjunct is trivial.
-/
import proofs.«137980_j20779051778070_2_alg».proof.Defs
import proofs.«137980_j20779051778070_2_alg».proof.Proof.Gen.Kernel
import proofs.«137980_j20779051778070_2_alg».proof.Proof.Gen.Kernel.Skeleton
import proofs.«137980_j20779051778070_2_alg».proof.Proof.Gen.Kernel.Launch
import proofs.«137980_j20779051778070_2_alg».proof.Proof.Gen.Kernel.Points
import proofs.«137980_j20779051778070_2_alg».proof.Proof.Gen.Kernel.Frame
import proofs.«137980_j20779051778070_2_alg».proof.Proof.Gen.KernelIdeal
import proofs.«137980_j20779051778070_2_alg».proof.Proof.Gen.KernelIdeal.Skeleton
import proofs.«137980_j20779051778070_2_alg».proof.Proof.Gen.KernelIdeal.Launch
import proofs.«137980_j20779051778070_2_alg».proof.Proof.Gen.KernelIdeal.Points
import proofs.«137980_j20779051778070_2_alg».proof.Proof.Gen.KernelIdeal.Frame
import proofs.«137980_j20779051778070_2_alg».proof.Proof.Gen.ReferenceIdeal
import proofs.«137980_j20779051778070_2_alg».proof.Proof.Gen.Pre_finite_inputs
import proofs.«137980_j20779051778070_2_alg».proof.Proof.Gen.KernelIdeal.Value
import proofs.«137980_j20779051778070_2_alg».proof.Proof.KernelClosed
import proofs.«137980_j20779051778070_2_alg».proof.Proof.RefRun
import proofs.«137980_j20779051778070_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrites no operation of the kernel. -/
theorem preserves : Cert.preserves_Kernel_KernelIdeal := trivial

/-- From memories agreeing on the arguments both programs end with their result at `G` of those arguments. -/
theorem algebraic : Cert.algebraic_KernelIdeal_ReferenceIdeal := by
  intro m ρ m' ρ' _ hagree
  refine ⟨_, Cert.KernelIdeal.ClosedValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.ReferenceIdeal.RefValue.ref_eq_G _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
